-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S3x1024x1024 : Shape := ⟨3, ![3, 1024, 1024]⟩
abbrev S16x2048x128 : Shape := ⟨3, ![16, 2048, 128]⟩
abbrev S1x2048x1024 : Shape := ⟨3, ![1, 2048, 1024]⟩
abbrev S3x128x1024 : Shape := ⟨3, ![3, 128, 1024]⟩
abbrev S1x2048x128 : Shape := ⟨3, ![1, 2048, 128]⟩
abbrev S2048x1024 : Shape := ⟨2, ![2048, 1024]⟩
abbrev S1x128x1024 : Shape := ⟨3, ![1, 128, 1024]⟩
abbrev S128x1024 : Shape := ⟨2, ![128, 1024]⟩
abbrev S2048x128 : Shape := ⟨2, ![2048, 128]⟩
abbrev S1x1024x128 : Shape := ⟨3, ![1, 1024, 128]⟩
abbrev S1024x128 : Shape := ⟨2, ![1024, 128]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S4096x1024 : Shape := ⟨2, ![4096, 1024]⟩

abbrev nBuf : Space → Nat
  | .hbm => 11
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S3x1024x1024, .f32⟩
  | .hbm, ⟨4, _⟩ => ⟨S16x2048x128, .bf16⟩
  | .hbm, ⟨5, _⟩ => ⟨S16x2048x128, .bf16⟩
  | .hbm, ⟨6, _⟩ => ⟨S16x2048x128, .bf16⟩
  | .hbm, ⟨7, _⟩ => ⟨S2x2048x1024, .f32⟩
  | .hbm, ⟨8, _⟩ => ⟨S4096x1024, .f32⟩
  | .hbm, ⟨9, _⟩ => ⟨S4096x1024, .f32⟩
  | .hbm, ⟨10, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S3x128x1024, .f32⟩
  | .local _ .vmem, ⟨3, _⟩ => ⟨S3x128x1024, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x1024x128, .f32⟩
  | .local _ .vmem, ⟨17, _⟩ => ⟨S1x1024x128, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S3072x1024_S3x1024x1024 : S3072x1024.ShapeCasts S3x1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S3x128x1024_S3x128x1024_0_0_0 : ∀ a, (![0, 0, 0] : Fin 3 → Nat) a + S3x128x1024.size a ≤ S3x128x1024.size a
  h_S3x128x1024 : 0 < S3x128x1024.numel
  shapeCasts_S3x128x1024_S3x128x1024 : S3x128x1024.ShapeCasts S3x128x1024
  slices_S3x128x1024_o0_0_0_S1x128x1024 : S3x128x1024.Slices ![0, 0, 0] S1x128x1024
  shapeCasts_S1x128x1024_S128x1024 : S1x128x1024.ShapeCasts S128x1024
  slices_S3x128x1024_o1_0_0_S1x128x1024 : S3x128x1024.Slices ![1, 0, 0] S1x128x1024
  slices_S3x128x1024_o2_0_0_S1x128x1024 : S3x128x1024.Slices ![2, 0, 0] S1x128x1024
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  slices_S2048x128_o0_0_S2048x64 : S2048x128.Slices ![0, 0] S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  slices_S1024x128_o0_64_S1024x64 : S1024x128.Slices ![0, 64] S1024x64
  slices_S2048x128_o0_64_S2048x64 : S2048x128.Slices ![0, 64] S2048x64
  concatenates_S1024x64_S1024x64_S1024x128_d1 : Shape.Concatenates [S1024x64, S1024x64] S1024x128 1
  shapeCasts_S1024x128_S1x1024x128 : S1024x128.ShapeCasts S1x1024x128
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S2048x1024_S128x1024_S2048x128_1_1_0_0_n_n_wf : DotDims.WF S2048x1024 S128x1024 S2048x128 [1] [1] [0] [0] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .f32 = 32 ∨ (Rect.block (s := S2x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128x1024.size a ≤ S3x1024x1024.size a
  hwx0_1 : ∀ i : grid0.Coords, EltTy.bits .f32 = 32 ∨ (Rect.block (s := S3x1024x1024) S3x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .bf16 = 32 ∨ (Rect.block (s := S16x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .bf16 = 32 ∨ (Rect.block (s := S16x2048x128) S1x2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .bf16 = 32 ∨ (Rect.block (s := S16x2048x128) S1x2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S16x2048x128.size a
  hwx1_0 : ∀ i : grid1.Coords, EltTy.bits .bf16 = 32 ∨ (Rect.block (s := S16x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S16x2048x128.size a
  hwx1_1 : ∀ i : grid1.Coords, EltTy.bits .bf16 = 32 ∨ (Rect.block (s := S16x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S16x2048x128.size a
  hwx1_2 : ∀ i : grid1.Coords, EltTy.bits .bf16 = 32 ∨ (Rect.block (s := S16x2048x128) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x2048x1024.size a
  hwx1_3 : ∀ i : grid1.Coords, EltTy.bits .f32 = 32 ∨ (Rect.block (s := S2x2048x1024) S1x1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x3x16x64, .f32⟩
  | .hbm, ⟨5, _⟩ => ⟨S2x2048x1x16x64, .f32⟩
  | .hbm, ⟨6, _⟩ => ⟨S2x2048x16x64, .f32⟩
  | .hbm, ⟨7, _⟩ => ⟨S2x16x2048x64, .f32⟩
  | .hbm, ⟨8, _⟩ => ⟨S2x2048x1x16x64, .f32⟩
  | .hbm, ⟨9, _⟩ => ⟨S2x2048x16x64, .f32⟩
  | .hbm, ⟨10, _⟩ => ⟨S2x16x2048x64, .f32⟩
  | .hbm, ⟨11, _⟩ => ⟨S2x2048x1x16x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.Spec.lean ====
/-
  Multi-head self-attention over the extended reals, as whole-array functions, index by index.

  Sixteen heads of width 64 over a model width of 1024; a batch of two sequences of 2048 rows; three projections
  (0 queries, 1 keys, 2 values) whose weights are the three [1024, 1024] slabs of one [3072, 1024] matrix.

  TWO spellings of the same mathematics:

  * PAIRED-HEAD layout.  The projected arrays are [16, 2048, 128]: row block `bp = 8·b + p` holds heads `2p` and
    `2p + 1` of sequence `b`, lanes `0..63` the first of the pair and lanes `64..127` the second.  `qkvAt`, `qkvArr`
    are the projections; `attnCore` is one output entry from a query row, the key rows and the value rows of its row
    block — the exponential-weighted sum of the value rows DIVIDED BY the sum of the weights, one division per entry —;
    `attnArr` lays the entries out [2, 2048, 1024]; `projArr` multiplies rows against the rows of the output weight;
    `flat`, `unflat`, `w3` are the row-major regroupings; `attnOut` is the whole.
  * HEAD-MAJOR layout.  `refHead` is one projected entry of head `h`; `refScore`, `refMax`, `refW`, `refDen` the
    scaled scores of a query row against the key rows of its head, their maximum, the exponentials of the differences
    and their sum; `refAttn` the sum of the value rows weighted by the NORMALISED weights, one division per weight;
    `refOutAt` the output projection.

  That the two agree on real inputs is Bridge.lean.
-/
import Idealize.ShloMosaic.PureOps.Ideal
import Idealize.ShloMosaic.Lib.ValueIdx

noncomputable section

namespace Cert.Attn

open Idealize.ShloMosaic Idealize.ShloMosaic.ValueIdx

abbrev SX : Shape := ⟨3, ![2, 2048, 1024]⟩
abbrev SWq : Shape := ⟨2, ![3072, 1024]⟩
abbrev SW : Shape := ⟨3, ![3, 1024, 1024]⟩
abbrev SQ : Shape := ⟨3, ![16, 2048, 128]⟩
abbrev SF : Shape := ⟨2, ![4096, 1024]⟩
abbrev SO : Shape := ⟨2, ![1024, 1024]⟩

/-- The scale 1/8 = 64^(-1/2), as the single-precision pattern both programs spell it with. -/
abbrev scale : EReal := Ideal.ofBits .f32 0x3E000000#32
/-- -∞, the value every maximum starts from. -/
abbrev negInf : EReal := Ideal.ofBits .f32 0xFF800000#32

/-- The lane of head-half `hf` (0 or 1) and head coordinate `d` in a 128-lane row. -/
abbrev lane (hf : Fin 2) (d : Fin 64) : Fin 128 := ⟨hf.val * 64 + d.val, by omega⟩

/-! ## Paired-head layout -/

/-- One projected entry: row `s` of sequence `bp / 8` against weight row `(bp % 8)·128 + j` of slab `c`. -/
def qkvAt (c : Fin 3) (x : SX.Idx → EReal) (w : SW.Idx → EReal) (bp : Fin 16) (s : Fin 2048) (j : Fin 128) : EReal :=
  ∑ e : Fin 1024, x (ix3 (⟨bp.val / 8, by omega⟩ : Fin 2) s e)
    * w (ix3 c (⟨bp.val % 8 * 128 + j.val, by omega⟩ : Fin 1024) e)

/-- The projected array, [16, 2048, 128]. -/
def qkvArr (c : Fin 3) (x : SX.Idx → EReal) (w : SW.Idx → EReal) : SQ.Idx → EReal :=
  fun i => qkvAt c x w (i 0) (i 1) (i 2)

/-- The scaled score of a query row against key row `t`, in head-half `hf`. -/
def scoreRow (qrow : Fin 128 → EReal) (krow : Fin 2048 → Fin 128 → EReal) (hf : Fin 2) (t : Fin 2048) : EReal :=
  (∑ d : Fin 64, qrow (lane hf d) * krow t (lane hf d)) * scale

/-- The largest score of the query row, as a fold of `max` from -∞. -/
def maxRow (qrow : Fin 128 → EReal) (krow : Fin 2048 → Fin 128 → EReal) (hf : Fin 2) : EReal :=
  (Finset.univ : Finset (Fin 2048)).fold max negInf (fun t => scoreRow qrow krow hf t)

/-- The unnormalised weight of key row `t`. -/
def wgtRow (qrow : Fin 128 → EReal) (krow : Fin 2048 → Fin 128 → EReal) (hf : Fin 2) (t : Fin 2048) : EReal :=
  Ideal.exp (scoreRow qrow krow hf t - maxRow qrow krow hf)

/-- The sum of the weights. -/
def denomRow (qrow : Fin 128 → EReal) (krow : Fin 2048 → Fin 128 → EReal) (hf : Fin 2) : EReal :=
  ∑ t : Fin 2048, wgtRow qrow krow hf t

/-- One attention output entry, ONE division: the weighted sum of the value rows over the sum of the weights. -/
def attnCore (qrow : Fin 128 → EReal) (krow vrow : Fin 2048 → Fin 128 → EReal) (hf : Fin 2) (d : Fin 64) : EReal :=
  Ideal.div (∑ t : Fin 2048, wgtRow qrow krow hf t * vrow t (lane hf d)) (denomRow qrow krow hf)

/-- The entry of row block `bp`, head-half `hf`, query row `s`, head coordinate `d`, from the projected arrays. -/
def attnAt (q k v : SQ.Idx → EReal) (bp : Fin 16) (hf : Fin 2) (s : Fin 2048) (d : Fin 64) : EReal :=
  attnCore (fun l => q (ix3 bp s l)) (fun t l => k (ix3 bp t l)) (fun t l => v (ix3 bp t l)) hf d

/-- Entry `(b, s, a)` of the attention output: head-pair `a / 128` of sequence `b`, lane `a % 128`. -/
def attnArrAt (q k v : SQ.Idx → EReal) (b : Fin 2) (s : Fin 2048) (a : Fin 1024) : EReal :=
  attnAt q k v (⟨b.val * 8 + a.val / 128, by have := b.isLt; have := a.isLt; omega⟩ : Fin 16)
    (⟨a.val % 128 / 64, by omega⟩ : Fin 2) s (⟨a.val % 64, by omega⟩ : Fin 64)

/-- The attention output, [2, 2048, 1024]. -/
def attnArr (q k v : SQ.Idx → EReal) : SX.Idx → EReal := fun i => attnArrAt q k v (i 0) (i 1) (i 2)

/-- Rows against the rows of a [1024, 1024] weight. -/
def projArr (o : SF.Idx → EReal) (w : SO.Idx → EReal) : SF.Idx → EReal :=
  fun i => ∑ k : Fin 1024, o (ix2 (i 0) k) * w (ix2 (i 1) k)

/-- [2, 2048, 1024] read as [4096, 1024], row-major. -/
def flatAt (o : SX.Idx → EReal) (r : Fin 4096) (a : Fin 1024) : EReal :=
  o (ix3 (⟨r.val / 2048, by have := r.isLt; omega⟩ : Fin 2) (⟨r.val % 2048, by omega⟩ : Fin 2048) a)
def flat (o : SX.Idx → EReal) : SF.Idx → EReal := fun i => flatAt o (i 0) (i 1)

/-- [4096, 1024] read as [2, 2048, 1024], row-major. -/
def unflatAt (y : SF.Idx → EReal) (b : Fin 2) (s : Fin 2048) (e : Fin 1024) : EReal :=
  y (ix2 (⟨b.val * 2048 + s.val, by have := b.isLt; have := s.isLt; omega⟩ : Fin 4096) e)
def unflat (y : SF.Idx → EReal) : SX.Idx → EReal := fun i => unflatAt y (i 0) (i 1) (i 2)

/-- The [3072, 1024] projection weight read as three [1024, 1024] slabs, row-major. -/
def w3At (wq : SWq.Idx → EReal) (c : Fin 3) (r : Fin 1024) (e : Fin 1024) : EReal :=
  wq (ix2 (⟨c.val * 1024 + r.val, by have := c.isLt; have := r.isLt; omega⟩ : Fin 3072) e)
def w3 (wq : SWq.Idx → EReal) : SW.Idx → EReal := fun i => w3At wq (i 0) (i 1) (i 2)

/-- The whole computation, paired-head layout, one division per output entry. -/
def attnOut (x : SX.Idx → EReal) (wq : SWq.Idx → EReal) (wo : SO.Idx → EReal) : SX.Idx → EReal :=
  unflat (projArr (flat (attnArr (qkvArr 0 x (w3 wq)) (qkvArr 1 x (w3 wq)) (qkvArr 2 x (w3 wq)))) wo)

/-! ## Head-major layout -/

/-- One projected entry of head `h`: row `s` of sequence `b` against weight row `c·1024 + h·64 + d`. -/
def refHead (x : SX.Idx → EReal) (wq : SWq.Idx → EReal) (c : Fin 3) (b : Fin 2) (h : Fin 16) (s : Fin 2048) (d : Fin 64) : EReal :=
  ∑ e : Fin 1024, x (ix3 b s e)
    * wq (ix2 (⟨c.val * 1024 + h.val * 64 + d.val, by have := c.isLt; have := h.isLt; have := d.isLt; omega⟩ : Fin 3072) e)

/-- The scaled score of query row `s` against key row `t` of head `h`. -/
def refScore (x : SX.Idx → EReal) (wq : SWq.Idx → EReal) (b : Fin 2) (h : Fin 16) (s t : Fin 2048) : EReal :=
  (∑ d : Fin 64, refHead x wq 0 b h s d * refHead x wq 1 b h t d) * scale

/-- The largest score of a query row: -∞ against the fold of `max` from -∞. -/
def refMax (x : SX.Idx → EReal) (wq : SWq.Idx → EReal) (b : Fin 2) (h : Fin 16) (s : Fin 2048) : EReal :=
  max negInf ((Finset.univ : Finset (Fin 2048)).fold max negInf (fun t => refScore x wq b h s t))

/-- The unnormalised weight of key row `t`. -/
def refW (x : SX.Idx → EReal) (wq : SWq.Idx → EReal) (b : Fin 2) (h : Fin 16) (s t : Fin 2048) : EReal :=
  Ideal.exp (refScore x wq b h s t - refMax x wq b h s)

/-- The sum of a query row's weights. -/
def refDen (x : SX.Idx → EReal) (wq : SWq.Idx → EReal) (b : Fin 2) (h : Fin 16) (s : Fin 2048) : EReal :=
  ∑ t : Fin 2048, refW x wq b h s t

/-- One attention output entry with one division per WEIGHT. -/
def refAttn (x : SX.Idx → EReal) (wq : SWq.Idx → EReal) (b : Fin 2) (h : Fin 16) (s : Fin 2048) (d : Fin 64) : EReal :=
  ∑ t : Fin 2048, Ideal.div (refW x wq b h s t) (refDen x wq b h s) * refHead x wq 2 b h t d

/-- Entry `(b, s, e)` of the result: the attention row `(b, s)`, laid out head-major over 1024 coordinates (coordinate
    `a` is head `a / 64`, head coordinate `a % 64`), against row `e` of the output weight. -/
def refOutAt (x : SX.Idx → EReal) (wq : SWq.Idx → EReal) (wo : SO.Idx → EReal) (b : Fin 2) (s : Fin 2048) (e : Fin 1024) : EReal :=
  ∑ a : Fin 1024, refAttn x wq b (⟨a.val / 64, by have := a.isLt; omega⟩ : Fin 16) s (⟨a.val % 64, by omega⟩ : Fin 64)
    * wo (ix2 e a)

/-- The result array, [2, 2048, 1024]. -/
def refOut (x : SX.Idx → EReal) (wq : SWq.Idx → EReal) (wo : SO.Idx → EReal) : SX.Idx → EReal :=
  fun i => refOutAt x wq wo (i 0) (i 1) (i 2)

end Cert.Attn

end
-- ==== Proof.Bridge.lean ====
/-
  The two spellings of attention agree on real inputs.

  With every entry of the input rows and of the projection weight a real number, every projected entry is a real
  number (a finite sum of products of reals), so is every scaled score, so is a row's maximum (a maximum, from -∞,
  over a nonempty set of reals), every weight is a positive real (an exponential), and the sum of a row's weights is a
  positive real `D`.  On the reals, dividing the weighted sum of the value rows by `D` is the same as weighting the
  value rows by the weights over `D`:  (∑ₜ wₜ·vₜ) / D = ∑ₜ (wₜ / D)·vₜ.  The rest is bookkeeping of the two layouts:
  lane `hf·64 + d` of row block `8·b + p` is coordinate `d` of head `2·p + hf` of sequence `b`, and coordinate `a` of
  an attention row is head `a / 64`, which sits in head-pair `a / 128`, half `(a % 128) / 64`.
-/
import proofs.«108100_j55834574848209_2_alg».proof.Proof.Spec

noncomputable section

namespace Cert.Attn.Bridge

open Idealize.ShloMosaic Idealize.ShloMosaic.ValueIdx Cert.Attn

/-! ## The two constants -/

/-- The scale's pattern denotes the real 1/8. -/
theorem scale_real : scale = ((1 / 8 : ℝ) : EReal) := by
  show Ideal.ofBits .f32 0x3E000000#32 = _
  simp [Ideal.ofBits, Ideal.ieee, -EReal.coe_mul]; norm_num

/-- The maximum's starting pattern denotes -∞. -/
theorem negInf_bot : negInf = ⊥ := by
  show Ideal.ofBits .f32 0xFF800000#32 = _
  simp [Ideal.ofBits, Ideal.ieee]

/-! ## Sums and maxima of reals inside the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum from -∞ over a nonempty finite family of reals is a real. -/
theorem fold_max_real {ι : Type} (s : Finset ι) (hs : s.Nonempty) (f : ι → ℝ) :
    ∃ r : ℝ, s.fold max (⊥ : EReal) (fun i => (f i : EReal)) = (r : EReal) := by
  induction hs using Finset.Nonempty.cons_induction with
  | singleton a => exact ⟨f a, by rw [Finset.fold_singleton]; exact max_eq_left bot_le⟩
  | cons a s ha hs ih =>
    obtain ⟨r, hr⟩ := ih
    exact ⟨max (f a) r, by rw [Finset.fold_cons, hr]; exact (EReal.coe_strictMono.monotone.map_max).symm⟩

/-- On the reals, a weighted sum divided by `D` is the sum weighted by the weights over `D`. -/
theorem div_sum_law {ι : Type} (s : Finset ι) (w v : ι → ℝ) (D : ℝ) (hD : D ≠ 0) :
    Ideal.div (∑ t ∈ s, (w t : EReal) * (v t : EReal)) (D : EReal)
      = ∑ t ∈ s, Ideal.div (w t : EReal) (D : EReal) * (v t : EReal) := by
  simp only [Ideal.div_coe hD, ← EReal.coe_mul, ← coe_sum]
  rw [Finset.sum_mul]
  refine congrArg _ (Finset.sum_congr rfl fun t _ => ?_)
  ring

/-! ## The layouts -/

/-- Lane `hf·64 + d` of row block `8·b + a/128`, with `hf = (a % 128) / 64`, is coordinate `d` of head `a / 64` of
    sequence `b`: the two projections read the same input row and the same weight row. -/
theorem head_eq (x : SX.Idx → EReal) (wq : SWq.Idx → EReal) (c : Fin 3) (b : Fin 2) (a : Fin 1024) (s : Fin 2048)
    (d : Fin 64) :
    qkvAt c x (w3 wq) (⟨b.val * 8 + a.val / 128, by have := b.isLt; have := a.isLt; omega⟩ : Fin 16) s
        (lane (⟨a.val % 128 / 64, by omega⟩ : Fin 2) d)
      = refHead x wq c b (⟨a.val / 64, by have := a.isLt; omega⟩ : Fin 16) s d := by
  have hb := b.isLt; have ha := a.isLt; have hd := d.isLt; have hc := c.isLt
  unfold qkvAt refHead
  refine Finset.sum_congr rfl fun e _ => ?_
  have e1 : (⟨(b.val * 8 + a.val / 128) / 8, by omega⟩ : Fin 2) = b := Fin.ext (by show (b.val * 8 + a.val / 128) / 8 = b.val; omega)
  have e2 : (⟨c.val * 1024 + ((b.val * 8 + a.val / 128) % 8 * 128 + (a.val % 128 / 64 * 64 + d.val)), by omega⟩ : Fin 3072)
      = ⟨c.val * 1024 + a.val / 64 * 64 + d.val, by omega⟩ := Fin.ext (by
    show c.val * 1024 + ((b.val * 8 + a.val / 128) % 8 * 128 + (a.val % 128 / 64 * 64 + d.val)) = c.val * 1024 + a.val / 64 * 64 + d.val
    omega)
  exact congrArg₂ (· * ·) (congrArg (fun r => x (ix3 r s e)) e1) (congrArg (fun r => wq (ix2 r e)) e2)

/-! ## Real inputs make every intermediate quantity real -/

section Real

variable (x : SX.Idx → EReal) (wq : SWq.Idx → EReal)
  (hx : ∀ i, ∃ r : ℝ, x i = (r : EReal)) (hw : ∀ i, ∃ r : ℝ, wq i = (r : EReal))
include hx hw

/-- A projected entry is a finite sum of products of reals. -/
theorem head_real (c : Fin 3) (b : Fin 2) (h : Fin 16) (s : Fin 2048) (d : Fin 64) :
    ∃ r : ℝ, refHead x wq c b h s d = (r : EReal) := by
  choose xr hxr using hx
  choose wr hwr using hw
  unfold refHead
  simp only [hxr, hwr, ← EReal.coe_mul, ← coe_sum]
  exact ⟨_, rfl⟩

/-- A scaled score is real. -/
theorem score_real (b : Fin 2) (h : Fin 16) (s t : Fin 2048) : ∃ r : ℝ, refScore x wq b h s t = (r : EReal) := by
  choose qh hqh using fun d => head_real x wq hx hw 0 b h s d
  choose kh hkh using fun d => head_real x wq hx hw 1 b h t d
  unfold refScore
  simp only [hqh, hkh, scale_real, ← EReal.coe_mul, ← coe_sum]
  exact ⟨_, rfl⟩

/-- A row's maximum is real: there are 2048 scores, all real. -/
theorem max_real (b : Fin 2) (h : Fin 16) (s : Fin 2048) : ∃ r : ℝ, refMax x wq b h s = (r : EReal) := by
  choose sc hsc using fun t => score_real x wq hx hw b h s t
  obtain ⟨r, hr⟩ := fold_max_real (Finset.univ : Finset (Fin 2048)) Finset.univ_nonempty sc
  refine ⟨r, ?_⟩
  unfold refMax
  simp only [hsc, negInf_bot]
  rw [hr]
  exact max_eq_right bot_le

/-- A weight is a positive real. -/
theorem w_real (b : Fin 2) (h : Fin 16) (s t : Fin 2048) : ∃ r : ℝ, 0 < r ∧ refW x wq b h s t = (r : EReal) := by
  obtain ⟨sc, hsc⟩ := score_real x wq hx hw b h s t
  obtain ⟨M, hM⟩ := max_real x wq hx hw b h s
  refine ⟨Real.exp (sc - M), Real.exp_pos _, ?_⟩
  unfold refW
  rw [hsc, hM, ← EReal.coe_sub, Ideal.exp_coe]

/-- The sum of a row's weights is a nonzero real. -/
theorem den_real (b : Fin 2) (h : Fin 16) (s : Fin 2048) : ∃ r : ℝ, r ≠ 0 ∧ refDen x wq b h s = (r : EReal) := by
  choose W hWpos hW using fun t => w_real x wq hx hw b h s t
  refine ⟨∑ t, W t, (Finset.sum_pos (fun t _ => hWpos t) Finset.univ_nonempty).ne', ?_⟩
  unfold refDen
  simp only [hW, ← coe_sum]

/-- One attention entry: whenever a row block's lanes are a head's coordinates, dividing once per entry and dividing
    once per weight agree. -/
theorem core_eq (q k v : SQ.Idx → EReal) (bp : Fin 16) (hf : Fin 2) (b : Fin 2) (h : Fin 16) (s : Fin 2048) (d : Fin 64)
    (hq : ∀ d', q (ix3 bp s (lane hf d')) = refHead x wq 0 b h s d')
    (hk : ∀ t d', k (ix3 bp t (lane hf d')) = refHead x wq 1 b h t d')
    (hv : ∀ t, v (ix3 bp t (lane hf d)) = refHead x wq 2 b h t d) :
    attnAt q k v bp hf s d = refAttn x wq b h s d := by
  have hsc : ∀ t, scoreRow (fun l => q (ix3 bp s l)) (fun t l => k (ix3 bp t l)) hf t = refScore x wq b h s t := fun t => by
    unfold scoreRow refScore
    exact congrArg (· * scale) (Finset.sum_congr rfl fun d' _ => congrArg₂ (· * ·) (hq d') (hk t d'))
  have hmax : maxRow (fun l => q (ix3 bp s l)) (fun t l => k (ix3 bp t l)) hf = refMax x wq b h s := by
    unfold maxRow refMax
    rw [max_eq_right ((Finset.le_fold_max (c := negInf)).2 (Or.inl le_rfl))]
    exact Finset.fold_congr (fun t _ => hsc t)
  have hwt : ∀ t, wgtRow (fun l => q (ix3 bp s l)) (fun t l => k (ix3 bp t l)) hf t = refW x wq b h s t := fun t => by
    unfold wgtRow refW; rw [hsc t, hmax]
  have hden : denomRow (fun l => q (ix3 bp s l)) (fun t l => k (ix3 bp t l)) hf = refDen x wq b h s := by
    unfold denomRow refDen; exact Finset.sum_congr rfl fun t _ => hwt t
  choose W hWpos hW using fun t => w_real x wq hx hw b h s t
  choose Vv hV using fun t => head_real x wq hx hw 2 b h t d
  obtain ⟨D, hD0, hD⟩ := den_real x wq hx hw b h s
  have e1 : (∑ t : Fin 2048, wgtRow (fun l => q (ix3 bp s l)) (fun t l => k (ix3 bp t l)) hf t * v (ix3 bp t (lane hf d)))
      = ∑ t : Fin 2048, (W t : EReal) * (Vv t : EReal) :=
    Finset.sum_congr rfl fun t _ => by rw [hwt t, hW t, hv t, hV t]
  calc attnAt q k v bp hf s d
      = Ideal.div (∑ t : Fin 2048, (W t : EReal) * (Vv t : EReal)) (D : EReal) := by
        unfold attnAt attnCore
        rw [hden, hD]
        exact congrArg (Ideal.div · _) e1
    _ = ∑ t : Fin 2048, Ideal.div (W t : EReal) (D : EReal) * (Vv t : EReal) := div_sum_law _ W Vv D hD0
    _ = refAttn x wq b h s d := by
        unfold refAttn
        rw [hD]
        exact Finset.sum_congr rfl fun t _ => by rw [hW t, hV t]

/-- Entry `(b, s, a)` of the attention output is coordinate `a % 64` of head `a / 64`. -/
theorem attn_entry (b : Fin 2) (s : Fin 2048) (a : Fin 1024) :
    attnArrAt (qkvArr 0 x (w3 wq)) (qkvArr 1 x (w3 wq)) (qkvArr 2 x (w3 wq)) b s a
      = refAttn x wq b (⟨a.val / 64, by have := a.isLt; omega⟩ : Fin 16) s (⟨a.val % 64, by omega⟩ : Fin 64) :=
  core_eq x wq hx hw _ _ _ _ _ b _ s _
    (fun d' => head_eq x wq 0 b a s d') (fun t d' => head_eq x wq 1 b a t d')
    (fun t => head_eq x wq 2 b a t (⟨a.val % 64, by omega⟩ : Fin 64))

/-- One entry of the result. -/
theorem out_entry (wo : SO.Idx → EReal) (b : Fin 2) (s : Fin 2048) (e : Fin 1024) :
    unflatAt (projArr (flat (attnArr (qkvArr 0 x (w3 wq)) (qkvArr 1 x (w3 wq)) (qkvArr 2 x (w3 wq)))) wo) b s e
      = refOutAt x wq wo b s e := by
  have hb := b.isLt; have hs := s.isLt
  unfold unflatAt projArr refOutAt
  refine Finset.sum_congr rfl fun a _ => ?_
  have e1 : (⟨(b.val * 2048 + s.val) / 2048, by omega⟩ : Fin 2) = b := Fin.ext (by show (b.val * 2048 + s.val) / 2048 = b.val; omega)
  have e2 : (⟨(b.val * 2048 + s.val) % 2048, by omega⟩ : Fin 2048) = s := Fin.ext (by show (b.val * 2048 + s.val) % 2048 = s.val; omega)
  refine congrArg₂ (· * ·) ?_ rfl
  exact (congrArg₂ (fun r1 r2 => attnArrAt (qkvArr 0 x (w3 wq)) (qkvArr 1 x (w3 wq)) (qkvArr 2 x (w3 wq)) r1 r2 a) e1 e2).trans
    (attn_entry x wq hx hw b s a)

/-- THE TWO SPELLINGS AGREE on real input rows and a real projection weight (the output weight may be anything). -/
theorem attnOut_eq_refOut (wo : SO.Idx → EReal) : attnOut x wq wo = refOut x wq wo :=
  funext fun i => out_entry x wq hx hw wo (i 0) (i 1) (i 2)

end Real

end Cert.Attn.Bridge

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibUnitAxis.lean ====
/-
  A leading axis of extent one, at rank three.

  A [1, a, b] block viewed as an [a, b] array reads `(p, k)` at the block's entry `(0, p, k)`, and an [a, b] array
  viewed as a [1, a, b] block reads `(z, p, q)` at the array's entry `(p, q)`: the two reshapes every block of a
  rank-3 array cut one slab at a time goes through.  Stated at coordinates, for any element type.
-/
import Idealize.ShloMosaic.Lib.Pipeline.Value
import Idealize.ShloMosaic.Lib.ValueIdx

noncomputable section

namespace Cert.LibUnitAxis

open Idealize.ShloMosaic Idealize.ShloMosaic.ValueIdx

/-- A [1, a, b] block viewed as [a, b] reads `(p, k)` at `(0, p, k)`. -/
theorem dropUnit_apply {α : Type} {a b : ℕ} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans (congrArg v (funext fun d => by
    match d with
    | ⟨0, _⟩ => rfl
    | ⟨1, _⟩ => rfl
    | ⟨2, _⟩ => rfl))

/-- An [a, b] array viewed as a [1, a, b] block reads `(z, p, q)` at `(p, q)`. -/
theorem addUnit_apply {α : Type} {a b : ℕ} (v : (⟨2, ![a, b]⟩ : Shape).Idx → α)
    (h : (⟨2, ![a, b]⟩ : Shape).ShapeCasts ⟨3, ![1, a, b]⟩) (z : Fin 1) (p : Fin a) (q : Fin b) :
    shapeCast ⟨3, ![1, a, b]⟩ v h (ix3 z p q) = v (ix2 p q) :=
  (shapeCast_addUnit_apply ![a, b] v h (ix3 z p q)).trans (congrArg v (funext fun d => by
    match d with
    | ⟨0, _⟩ => rfl
    | ⟨1, _⟩ => rfl))

end Cert.LibUnitAxis

end
-- ==== Proof.QkvRegion.lean ====
/-
  The projection region: from what each grid point writes back to the three projected arrays.

  The grid is 2 x 8; point (b, p) multiplies the 2048 rows of sequence b against rows p*128 .. p*128 + 127 of each
  of the three weight slabs and writes the three [2048, 128] products as row block 8*b + p of the three projected
  arrays.  Entry (s, j) of the product for slab c is the sum over the model coordinate e of x(b, s, e) times
  w(c, p*128 + j, e); rounding to the narrower float format on the way in and on the way out is the identity over
  the extended reals.  The sixteen row blocks tile each projected array, so each array is the one function
  qkvArr c of the input and the weight as the region finds them.
-/
import proofs.«108100_j55834574848209_2_alg».proof.Proof.Gen.KernelIdeal.Frame
import proofs.«108100_j55834574848209_2_alg».proof.Proof.Spec
import proofs.«108100_j55834574848209_2_alg».proof.Proof.LibMatmulNT
import proofs.«108100_j55834574848209_2_alg».proof.Proof.LibUnitAxis
import Idealize.ShloMosaic.Lib.Pipeline.Value

noncomputable section

namespace Cert.KernelIdeal.QkvRegion

open Cert.KernelIdeal Cert.KernelIdeal.Gen Cert.Attn Idealize.ShloMosaic Idealize.ShloMosaic.TcCoe Idealize.SL.Sem
open Idealize.ShloMosaic.ValueIdx
open Idealize.ShloMosaic.Pipeline (Dat)

/-! ## The product's dimension numbers: rows of the left operand, rows of the right, both contracted on axis 1 -/

abbrev dotQ : DotDims S2048x1024 S128x1024 S2048x128 := dot_S2048x1024_S128x1024_S2048x128_1_1_0_0_n_n

theorem dotQ_lhs0 (j : S2048x128.Idx) (q : dotQ.contr.Idx) : (dotQ.lhsIdx j q 0).val = (j 0).val := by
  unfold DotDims.lhsIdx
  rw [dif_neg (show ¬(0 : Fin S2048x1024.rank) ∈ dotQ.lhsBatch by decide),
    dif_pos (show (0 : Fin S2048x1024.rank) ∈ dotQ.lhsNonContracting by decide)]
  rfl

theorem dotQ_lhs1 (j : S2048x128.Idx) (q : dotQ.contr.Idx) : (dotQ.lhsIdx j q 1).val = (q ⟨0, by decide⟩).val :=
  dotQ.lhsIdx_val_of_single rfl j q

theorem dotQ_rhs0 (j : S2048x128.Idx) (q : dotQ.contr.Idx) : (dotQ.rhsIdx j q 0).val = (j 1).val := by
  unfold DotDims.rhsIdx
  rw [dif_neg (show ¬(0 : Fin S128x1024.rank) ∈ dotQ.rhsBatch by decide),
    dif_pos (show (0 : Fin S128x1024.rank) ∈ dotQ.rhsNonContracting by decide)]
  rfl

theorem dotQ_rhs1 (j : S2048x128.Idx) (q : dotQ.contr.Idx) : (dotQ.rhsIdx j q 1).val = (q ⟨0, by decide⟩).val :=
  dotQ.rhsIdx_val_of_single rfl j q

/-! ## One point's product at an entry -/

/-- Row s of the input block, as the left operand: entry (s, e) is the block's entry (0, s, e). -/
theorem lhs_apply (x : Vec Ideal S1x2048x1024 .f32) (s : Fin 2048) (e : Fin 1024) :
    k0_pay1 (F := Ideal) x (ix2 s e) = x (ix3 0 s e) := by
  unfold k0_pay1
  exact LibUnitAxis.dropUnit_apply x shapeCasts_S1x2048x1024_S2048x1024 s e

/-- Slab c of the weight block, as the right operand: entry (j, e) is the block's entry (c, j, e). -/
theorem rhs_apply (w : Vec Ideal S3x128x1024 .f32) (off : Fin 3 → Nat) (h : S3x128x1024.Slices off S1x128x1024)
    (c : Fin 3) (hoff : ∀ a : Fin 3, off a = (![c.val, 0, 0] : Fin 3 → Nat) a) (j : Fin 128) (e : Fin 1024) :
    shapeCast S128x1024 (extractStridedSlice S1x128x1024 off (k0_pay2 (F := Ideal) w) h) shapeCasts_S1x128x1024_S128x1024 (ix2 j e)
      = w (ix3 c j e) := by
  refine (LibUnitAxis.dropUnit_apply _ shapeCasts_S1x128x1024_S128x1024 j e).trans ?_
  refine (extractStridedSlice_apply off _ h (ix3 0 j e) (ix3 c j e) fun a => ?_).trans ?_
  · rw [hoff a]
    match a with
    | ⟨0, _⟩ => show c.val = c.val + 0; omega
    | ⟨1, _⟩ => show j.val = 0 + j.val; omega
    | ⟨2, _⟩ => show e.val = 0 + e.val; omega
  · unfold k0_pay2
    exact congrFun (shapeCast_self w shapeCasts_S3x128x1024_S3x128x1024) (ix3 c j e)

/-- Entry (0, s, j) of the product for slab c: row s of the input block against row j of the slab. -/
theorem prod_apply (x : Vec Ideal S1x2048x1024 .f32) (w : Vec Ideal S3x128x1024 .f32) (off : Fin 3 → Nat)
    (h : S3x128x1024.Slices off S1x128x1024) (c : Fin 3) (hoff : ∀ a : Fin 3, off a = (![c.val, 0, 0] : Fin 3 → Nat) a)
    (z : Fin 1) (s : Fin 2048) (j : Fin 128) :
    shapeCast S1x2048x128
        (truncf .bf16
          (matmul dotQ none (k0_pay1 (F := Ideal) x)
            (shapeCast S128x1024 (extractStridedSlice S1x128x1024 off (k0_pay2 (F := Ideal) w) h) shapeCasts_S1x128x1024_S128x1024)
            (constant (F := Ideal) S2048x128 .f32 0x00000000#32))
          bitsLt_bf16_f32)
        shapeCasts_S2048x128_S1x2048x128 (ix3 z s j)
      = ∑ e : Fin 1024, x (ix3 0 s e) * w (ix3 c j e) := by
  refine (LibUnitAxis.addUnit_apply _ shapeCasts_S2048x128_S1x2048x128 z s j).trans ?_
  refine (LibMatmulNT.matmul_nt_zero_apply dotQ none (k0_pay1 (F := Ideal) x) _ rfl rfl dotQ_lhs0 dotQ_lhs1 dotQ_rhs0 dotQ_rhs1 s j).trans ?_
  refine Finset.sum_congr rfl fun e _ => ?_
  rw [lhs_apply x s e, rhs_apply w off h c hoff j e]

theorem pay3_apply (x : Vec Ideal S1x2048x1024 .f32) (w : Vec Ideal S3x128x1024 .f32) (z : Fin 1) (s : Fin 2048) (j : Fin 128) :
    k0_pay3 (F := Ideal) x w (ix3 z s j) = ∑ e : Fin 1024, x (ix3 0 s e) * w (ix3 0 j e) :=
  prod_apply x w ![0, 0, 0] slices_S3x128x1024_o0_0_0_S1x128x1024 0 (fun _ => rfl) z s j

theorem pay4_apply (x : Vec Ideal S1x2048x1024 .f32) (w : Vec Ideal S3x128x1024 .f32) (z : Fin 1) (s : Fin 2048) (j : Fin 128) :
    k0_pay4 (F := Ideal) x w (ix3 z s j) = ∑ e : Fin 1024, x (ix3 0 s e) * w (ix3 1 j e) :=
  prod_apply x w ![1, 0, 0] slices_S3x128x1024_o1_0_0_S1x128x1024 1 (fun _ => rfl) z s j

theorem pay5_apply (x : Vec Ideal S1x2048x1024 .f32) (w : Vec Ideal S3x128x1024 .f32) (z : Fin 1) (s : Fin 2048) (j : Fin 128) :
    k0_pay5 (F := Ideal) x w (ix3 z s j) = ∑ e : Fin 1024, x (ix3 0 s e) * w (ix3 2 j e) :=
  prod_apply x w ![2, 0, 0] slices_S3x128x1024_o2_0_0_S1x128x1024 2 (fun _ => rfl) z s j

/-! ## Where a point's blocks sit -/

theorem zero3 : (![0, 0, 0] : Fin 3 → Nat) = fun _ => 0 := funext fun a => by fin_cases a <;> rfl

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The block indices at a point, decided over the sixteen points: the output's row block is r = 8*b + p, the input's
    block is sequence r / 8, the weight's block is rows (r % 8)*128 .. of every slab; the three outputs move together. -/
theorem idx_facts : ∀ t : Fin cfg0.N,
    win0_0.index t (0 : Fin 3) = win0_2.index t (0 : Fin 3) / 8
    ∧ win0_0.index t (1 : Fin 3) = 0 ∧ win0_0.index t (2 : Fin 3) = 0
    ∧ win0_1.index t (0 : Fin 3) = 0
    ∧ win0_1.index t (1 : Fin 3) = win0_2.index t (0 : Fin 3) % 8
    ∧ win0_1.index t (2 : Fin 3) = 0
    ∧ win0_2.index t (0 : Fin 3) ≤ 15 ∧ win0_2.index t (1 : Fin 3) = 0 ∧ win0_2.index t (2 : Fin 3) = 0 :=
  (by decide +kernel : ∀ t : Fin grid0.N, _)

theorem idx_same : ∀ t : Fin cfg0.N, (∀ a : Fin 3, win0_3.index t a = win0_2.index t a) ∧ (∀ a : Fin 3, win0_4.index t a = win0_2.index t a) :=
  (by decide +kernel : ∀ t : Fin grid0.N, _)

/-- Every row block is some point's. -/
theorem idx_onto : ∀ q0 : Fin 16, ∃ t : Fin cfg0.N, win0_2.index t = ![q0.val, 0, 0] :=
  (by decide +kernel : ∀ q0 : Fin 16, ∃ t : Fin grid0.N, win0_2.index t = ![q0.val, 0, 0])

/-- A point's product for slab c is the block of qkvArr c at row block r, when the point's input block is sequence
    r / 8 and its weight block is rows (r % 8)*128 .. of each slab. -/
theorem block_entry (c : Fin 3) (X : SX.Idx → EReal) (W : SW.Idx → EReal)
    (x : Vec Ideal S1x2048x1024 .f32) (w : Vec Ideal S3x128x1024 .f32)
    (r : Fin 16) (s s' : Fin 2048) (j j' : Fin 128)
    (hx : ∀ e : Fin 1024, x (ix3 0 s e) = X (ix3 (⟨r.val / 8, by omega⟩ : Fin 2) s' e))
    (hw : ∀ e : Fin 1024, w (ix3 c j e) = W (ix3 c (⟨r.val % 8 * 128 + j'.val, by omega⟩ : Fin 1024) e)) :
    ∑ e : Fin 1024, x (ix3 0 s e) * w (ix3 c j e) = qkvAt c X W r s' j' :=
  Finset.sum_congr rfl fun e _ => by rw [hx e, hw e]

variable (V : (c : Dev nD) → (b : Ref sig .tc) → Buf (Elt Ideal) ((c : Thread nD τ).loc b))

/-! ## The queries -/

/-- What a point writes back to the first output is its block of qkvArr 0. -/
theorem flushed_q (c : Dev nD) (t : Fin cfg0.N) :
    (dat0 (F := Ideal) V c).flushed 2 t
      = ((cfg0.win 2).blk t).view.read (Elt Ideal) (qkvArr 0 (V c main_arg0) (V c main_v0)) := by
  show (cfg0.win 2).cut (grid0.coords t) ((dat0 V c).after 2 t) = _
  rw [after0_2]
  unfold out0_2
  rw [View.canon_unit_zero zero3]
  simp only [View.ld_unit_zero (S := S1x2048x1024) zero3, View.ld_unit_zero (S := S3x128x1024) zero3]
  obtain ⟨e0, e1, e2, e3, e4, e5, e6, e7, e8⟩ := idx_facts t
  funext y
  have hy := eq_ix3 (n0 := 1) (n1 := 2048) (n2 := 128) y
  have hz : (y 0).val < 1 := idx3_lt0 (n0 := 1) (n1 := 2048) (n2 := 128) y
  have hs : (y 1).val < 2048 := idx3_lt1 (n0 := 1) (n1 := 2048) (n2 := 128) y
  have hj : (y 2).val < 128 := idx3_lt2 (n0 := 1) (n1 := 2048) (n2 := 128) y
  show k0_pay3 (iblk0 V c 0 t) (iblk0 V c 1 t) y
    = qkvAt 0 (V c main_arg0) (V c main_v0) (((cfg0.win 2).blk t).view.emb y 0) (((cfg0.win 2).blk t).view.emb y 1) (((cfg0.win 2).blk t).view.emb y 2)
  refine (congrArg (k0_pay3 (F := Ideal) (iblk0 V c 0 t) (iblk0 V c 1 t)) hy).trans ?_
  refine (pay3_apply (iblk0 V c 0 t) (iblk0 V c 1 t) (y 0) (y 1) (y 2)).trans ?_
  refine block_entry 0 (V c main_arg0) (V c main_v0) (iblk0 V c 0 t) (iblk0 V c 1 t) _ (y 1) _ (y 2) _ (fun e => ?_) (fun e => ?_)
  · show V c main_arg0 (((cfg0.win 0).blk t).view.emb (ix3 (0 : Fin 1) (y 1) e)) = _
    refine congrArg (V c main_arg0) (funext fun a => Fin.ext ?_)
    match a with
    | ⟨0, _⟩ => show win0_0.index t (0 : Fin 3) * 1 + 1 * 0 = (win0_2.index t (0 : Fin 3) * 1 + 1 * (y 0).val) / 8; omega
    | ⟨1, _⟩ => show win0_0.index t (1 : Fin 3) * 2048 + 1 * (y 1).val = win0_2.index t (1 : Fin 3) * 2048 + 1 * (y 1).val; omega
    | ⟨2, _⟩ => show win0_0.index t (2 : Fin 3) * 1024 + 1 * e.val = e.val; omega
  · show V c main_v0 (((cfg0.win 1).blk t).view.emb (ix3 (0 : Fin 3) (y 2) e)) = _
    refine congrArg (V c main_v0) (funext fun a => Fin.ext ?_)
    match a with
    | ⟨0, _⟩ => show win0_1.index t (0 : Fin 3) * 3 + 1 * 0 = 0; omega
    | ⟨1, _⟩ => show win0_1.index t (1 : Fin 3) * 128 + 1 * (y 2).val = (win0_2.index t (0 : Fin 3) * 1 + 1 * (y 0).val) % 8 * 128 + (win0_2.index t (2 : Fin 3) * 128 + 1 * (y 2).val); omega
    | ⟨2, _⟩ => show win0_1.index t (2 : Fin 3) * 1024 + 1 * e.val = e.val; omega

/-- An entry is in a point's block iff each coordinate is in the block's range on its axis. -/
theorem mem_blk_q (t : Fin cfg0.N) (i : S16x2048x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v1_0).slice (win0_2.rect t)).set ↔ _
  rw [View.set_slice_whole, Rect.mem_set_unit]
  exact Iff.rfl

/-- The sixteen row blocks tile the array: entry (r, s, j) is in the block of the point whose row block is r. -/
theorem cover_q (i : S16x2048x128.Idx) :
    ∃ t : Fin cfg0.N, (cfg0.win 2).flush t = true ∧ i ∈ ((cfg0.win 2).blk t).view.set := by
  have hi0 : (i 0).val < 16 := idx3_lt0 (n0 := 16) (n1 := 2048) (n2 := 128) i
  have hi1 : (i 1).val < 2048 := idx3_lt1 (n0 := 16) (n1 := 2048) (n2 := 128) i
  have hi2 : (i 2).val < 128 := idx3_lt2 (n0 := 16) (n1 := 2048) (n2 := 128) i
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk_q]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The first output after the region: the queries, as one function of the input and the weight. -/
theorem final_q (c : Dev nD) : (Gen.dat0 (F := Ideal) V c).arrAt 2 cfg0.N = qkvArr 0 (V c main_arg0) (V c main_v0) :=
  (dat0 V c).arrAt_eq_of_cover 2 (qkvArr 0 (V c main_arg0) (V c main_v0)) (fun t _ => flushed_q V c t) cover_q

/-! ## The keys -/

/-- What a point writes back to the second output is its block of qkvArr 1. -/
theorem flushed_k (c : Dev nD) (t : Fin cfg0.N) :
    (dat0 (F := Ideal) V c).flushed 3 t
      = ((cfg0.win 3).blk t).view.read (Elt Ideal) (qkvArr 1 (V c main_arg0) (V c main_v0)) := by
  show (cfg0.win 3).cut (grid0.coords t) ((dat0 V c).after 3 t) = _
  rw [after0_3]
  unfold out0_3
  rw [View.canon_unit_zero zero3]
  simp only [View.ld_unit_zero (S := S1x2048x1024) zero3, View.ld_unit_zero (S := S3x128x1024) zero3]
  obtain ⟨e0, e1, e2, e3, e4, e5, e6, e7, e8⟩ := idx_facts t
  have f0 := (idx_same t).1 0; have f1 := (idx_same t).1 1; have f2 := (idx_same t).1 2
  funext y
  have hy := eq_ix3 (n0 := 1) (n1 := 2048) (n2 := 128) y
  have hz : (y 0).val < 1 := idx3_lt0 (n0 := 1) (n1 := 2048) (n2 := 128) y
  have hs : (y 1).val < 2048 := idx3_lt1 (n0 := 1) (n1 := 2048) (n2 := 128) y
  have hj : (y 2).val < 128 := idx3_lt2 (n0 := 1) (n1 := 2048) (n2 := 128) y
  show k0_pay4 (iblk0 V c 0 t) (iblk0 V c 1 t) y
    = qkvAt 1 (V c main_arg0) (V c main_v0) (((cfg0.win 3).blk t).view.emb y 0) (((cfg0.win 3).blk t).view.emb y 1) (((cfg0.win 3).blk t).view.emb y 2)
  refine (congrArg (k0_pay4 (F := Ideal) (iblk0 V c 0 t) (iblk0 V c 1 t)) hy).trans ?_
  refine (pay4_apply (iblk0 V c 0 t) (iblk0 V c 1 t) (y 0) (y 1) (y 2)).trans ?_
  refine block_entry 1 (V c main_arg0) (V c main_v0) (iblk0 V c 0 t) (iblk0 V c 1 t) _ (y 1) _ (y 2) _ (fun e => ?_) (fun e => ?_)
  · show V c main_arg0 (((cfg0.win 0).blk t).view.emb (ix3 (0 : Fin 1) (y 1) e)) = _
    refine congrArg (V c main_arg0) (funext fun a => Fin.ext ?_)
    match a with
    | ⟨0, _⟩ => show win0_0.index t (0 : Fin 3) * 1 + 1 * 0 = (win0_3.index t (0 : Fin 3) * 1 + 1 * (y 0).val) / 8; omega
    | ⟨1, _⟩ => show win0_0.index t (1 : Fin 3) * 2048 + 1 * (y 1).val = win0_3.index t (1 : Fin 3) * 2048 + 1 * (y 1).val; omega
    | ⟨2, _⟩ => show win0_0.index t (2 : Fin 3) * 1024 + 1 * e.val = e.val; omega
  · show V c main_v0 (((cfg0.win 1).blk t).view.emb (ix3 (1 : Fin 3) (y 2) e)) = _
    refine congrArg (V c main_v0) (funext fun a => Fin.ext ?_)
    match a with
    | ⟨0, _⟩ => show win0_1.index t (0 : Fin 3) * 3 + 1 * 1 = 1; omega
    | ⟨1, _⟩ => show win0_1.index t (1 : Fin 3) * 128 + 1 * (y 2).val = (win0_3.index t (0 : Fin 3) * 1 + 1 * (y 0).val) % 8 * 128 + (win0_3.index t (2 : Fin 3) * 128 + 1 * (y 2).val); omega
    | ⟨2, _⟩ => show win0_1.index t (2 : Fin 3) * 1024 + 1 * e.val = e.val; omega

/-- An entry is in a point's block iff each coordinate is in the block's range on its axis. -/
theorem mem_blk_k (t : Fin cfg0.N) (i : S16x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v1_1).slice (win0_3.rect t)).set ↔ _
  rw [View.set_slice_whole, Rect.mem_set_unit]
  exact Iff.rfl

/-- The sixteen row blocks tile the array: entry (r, s, j) is in the block of the point whose row block is r. -/
theorem cover_k (i : S16x2048x128.Idx) :
    ∃ t : Fin cfg0.N, (cfg0.win 3).flush t = true ∧ i ∈ ((cfg0.win 3).blk t).view.set := by
  have hi0 : (i 0).val < 16 := idx3_lt0 (n0 := 16) (n1 := 2048) (n2 := 128) i
  have hi1 : (i 1).val < 2048 := idx3_lt1 (n0 := 16) (n1 := 2048) (n2 := 128) i
  have hi2 : (i 2).val < 128 := idx3_lt2 (n0 := 16) (n1 := 2048) (n2 := 128) i
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  have f0 := (idx_same t).1 0; have f1 := (idx_same t).1 1; have f2 := (idx_same t).1 2
  refine ⟨t, flush0_3 t, ?_⟩
  rw [mem_blk_k]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- The second output after the region: the keys. -/
theorem final_k (c : Dev nD) : (Gen.dat0 (F := Ideal) V c).arrAt 3 cfg0.N = qkvArr 1 (V c main_arg0) (V c main_v0) :=
  (dat0 V c).arrAt_eq_of_cover 3 (qkvArr 1 (V c main_arg0) (V c main_v0)) (fun t _ => flushed_k V c t) cover_k

/-! ## The values -/

/-- What a point writes back to the third output is its block of qkvArr 2. -/
theorem flushed_v (c : Dev nD) (t : Fin cfg0.N) :
    (dat0 (F := Ideal) V c).flushed 4 t
      = ((cfg0.win 4).blk t).view.read (Elt Ideal) (qkvArr 2 (V c main_arg0) (V c main_v0)) := by
  show (cfg0.win 4).cut (grid0.coords t) ((dat0 V c).after 4 t) = _
  rw [after0_4]
  unfold out0_4
  rw [View.canon_unit_zero zero3]
  simp only [View.ld_unit_zero (S := S1x2048x1024) zero3, View.ld_unit_zero (S := S3x128x1024) zero3]
  obtain ⟨e0, e1, e2, e3, e4, e5, e6, e7, e8⟩ := idx_facts t
  have f0 := (idx_same t).2 0; have f1 := (idx_same t).2 1; have f2 := (idx_same t).2 2
  funext y
  have hy := eq_ix3 (n0 := 1) (n1 := 2048) (n2 := 128) y
  have hz : (y 0).val < 1 := idx3_lt0 (n0 := 1) (n1 := 2048) (n2 := 128) y
  have hs : (y 1).val < 2048 := idx3_lt1 (n0 := 1) (n1 := 2048) (n2 := 128) y
  have hj : (y 2).val < 128 := idx3_lt2 (n0 := 1) (n1 := 2048) (n2 := 128) y
  show k0_pay5 (iblk0 V c 0 t) (iblk0 V c 1 t) y
    = qkvAt 2 (V c main_arg0) (V c main_v0) (((cfg0.win 4).blk t).view.emb y 0) (((cfg0.win 4).blk t).view.emb y 1) (((cfg0.win 4).blk t).view.emb y 2)
  refine (congrArg (k0_pay5 (F := Ideal) (iblk0 V c 0 t) (iblk0 V c 1 t)) hy).trans ?_
  refine (pay5_apply (iblk0 V c 0 t) (iblk0 V c 1 t) (y 0) (y 1) (y 2)).trans ?_
  refine block_entry 2 (V c main_arg0) (V c main_v0) (iblk0 V c 0 t) (iblk0 V c 1 t) _ (y 1) _ (y 2) _ (fun e => ?_) (fun e => ?_)
  · show V c main_arg0 (((cfg0.win 0).blk t).view.emb (ix3 (0 : Fin 1) (y 1) e)) = _
    refine congrArg (V c main_arg0) (funext fun a => Fin.ext ?_)
    match a with
    | ⟨0, _⟩ => show win0_0.index t (0 : Fin 3) * 1 + 1 * 0 = (win0_4.index t (0 : Fin 3) * 1 + 1 * (y 0).val) / 8; omega
    | ⟨1, _⟩ => show win0_0.index t (1 : Fin 3) * 2048 + 1 * (y 1).val = win0_4.index t (1 : Fin 3) * 2048 + 1 * (y 1).val; omega
    | ⟨2, _⟩ => show win0_0.index t (2 : Fin 3) * 1024 + 1 * e.val = e.val; omega
  · show V c main_v0 (((cfg0.win 1).blk t).view.emb (ix3 (2 : Fin 3) (y 2) e)) = _
    refine congrArg (V c main_v0) (funext fun a => Fin.ext ?_)
    match a with
    | ⟨0, _⟩ => show win0_1.index t (0 : Fin 3) * 3 + 1 * 2 = 2; omega
    | ⟨1, _⟩ => show win0_1.index t (1 : Fin 3) * 128 + 1 * (y 2).val = (win0_4.index t (0 : Fin 3) * 1 + 1 * (y 0).val) % 8 * 128 + (win0_4.index t (2 : Fin 3) * 128 + 1 * (y 2).val); omega
    | ⟨2, _⟩ => show win0_1.index t (2 : Fin 3) * 1024 + 1 * e.val = e.val; omega

/-- An entry is in a point's block iff each coordinate is in the block's range on its axis. -/
theorem mem_blk_v (t : Fin cfg0.N) (i : S16x2048x128.Idx) :
    i ∈ ((cfg0.win 4).blk t).view.set ↔ ∀ a : Fin 3, win0_4.index t a * S1x2048x128.size a ≤ (i a).val
      ∧ (i a).val < win0_4.index t a * S1x2048x128.size a + S1x2048x128.size a := by
  show i ∈ ((View.whole main_v1_2).slice (win0_4.rect t)).set ↔ _
  rw [View.set_slice_whole, Rect.mem_set_unit]
  exact Iff.rfl

/-- The sixteen row blocks tile the array: entry (r, s, j) is in the block of the point whose row block is r. -/
theorem cover_v (i : S16x2048x128.Idx) :
    ∃ t : Fin cfg0.N, (cfg0.win 4).flush t = true ∧ i ∈ ((cfg0.win 4).blk t).view.set := by
  have hi0 : (i 0).val < 16 := idx3_lt0 (n0 := 16) (n1 := 2048) (n2 := 128) i
  have hi1 : (i 1).val < 2048 := idx3_lt1 (n0 := 16) (n1 := 2048) (n2 := 128) i
  have hi2 : (i 2).val < 128 := idx3_lt2 (n0 := 16) (n1 := 2048) (n2 := 128) i
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  have f0 := (idx_same t).2 0; have f1 := (idx_same t).2 1; have f2 := (idx_same t).2 2
  refine ⟨t, flush0_4 t, ?_⟩
  rw [mem_blk_v]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 128 ≤ (i 2).val ∧ (i 2).val < win0_4.index t (2 : Fin 3) * 128 + 128; omega

/-- The third output after the region: the values. -/
theorem final_v (c : Dev nD) : (Gen.dat0 (F := Ideal) V c).arrAt 4 cfg0.N = qkvArr 2 (V c main_arg0) (V c main_v0) :=
  (dat0 V c).arrAt_eq_of_cover 4 (qkvArr 2 (V c main_arg0) (V c main_v0)) (fun t _ => flushed_v V c t) cover_v

end Cert.KernelIdeal.QkvRegion

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibRowMax.lean ====
/-
  The maximum of an `[a, b]` array along its second axis, read at an index, on the extended reals: at entry `p` it is
  the fold of `max`, from the accumulator's value, over the entries `(p, k)` of row `p`.
-/
import Idealize.ShloMosaic.Lib.Pipeline.Value
import Idealize.ShloMosaic.Lib.ValueIdx
import Idealize.ShloMosaic.PureOps.Ideal.Laws

noncomputable section

namespace Cert.LibRowMax

open Idealize.ShloMosaic Idealize.ShloMosaic.ValueIdx

/-- A maximum along the second axis of an `[a, b]` array, read at entry `p`: the fold of `max` over row `p`, from
    what the accumulator's pattern denotes. -/
theorem rowMax_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun c => Fin.ext (by
      match c with
      | ⟨0, _⟩ => rfl
      | ⟨1, _⟩ => rfl)))

end Cert.LibRowMax

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.AttnBody.lean ====
/-
  The attention block of one grid step, read at an index, on the extended reals.

  A grid step holds a [1, 1024, 128] block of query rows and [1, 2048, 128] blocks of key and value rows: two heads
  side by side, lanes 0..63 the first and lanes 64..127 the second. For each head-half it takes the 64-lane slices,
  multiplies queries against keys and scales by 1/8, subtracts each row's maximum, exponentiates, sums the weights of
  each row, multiplies the weights against the values and divides by the row's sum; the two [1024, 64] results are laid
  side by side into the [1, 1024, 128] block it stores.

  Read at `(z, r, j)`, that block is `attnCore` of query row `r` and the key and value rows, at head-half `j / 64` and
  head coordinate `j % 64`: the weighted sum of the value rows divided, once, by the sum of the weights. The
  computation of one head-half is first read over abstract slices that hold lanes `lane hf d` of the rows; the two
  concrete halves are instances of it, and a lane `j` is `lane (j / 64) (j % 64)`.
-/
import proofs.«108100_j55834574848209_2_alg».proof.Proof.Gen.KernelIdeal.Skeleton
import proofs.«108100_j55834574848209_2_alg».proof.Proof.Spec
import proofs.«108100_j55834574848209_2_alg».proof.Proof.LibUnitAxis
import proofs.«108100_j55834574848209_2_alg».proof.Proof.LibMatmulNT
import proofs.«108100_j55834574848209_2_alg».proof.Proof.LibRowOps
import proofs.«108100_j55834574848209_2_alg».proof.Proof.LibRowMax
import proofs.«108100_j55834574848209_2_alg».proof.Proof.LibColumn
import proofs.«108100_j55834574848209_2_alg».proof.Proof.LibUnitColumn
import proofs.«108100_j55834574848209_2_alg».proof.Proof.LibConcat2

noncomputable section

namespace Cert.KernelIdeal.AttnBody

open Idealize.ShloMosaic Idealize.ShloMosaic.ValueIdx Cert.Attn Cert.KernelIdeal.Gen

/-! ## One head-half, over abstract slices

A head-half's computation only sees a [1024, 64] slice of the query block and [2048, 64] slices of the key and value
blocks. The three definitions below are that computation; each is read at an index under the hypothesis that the
slices hold lanes `lane hf d` of a query row and of the key and value rows. -/

/-- The scaled scores of a [1024, 64] query slice against a [2048, 64] key slice. -/
def sc (q : FVec Ideal S1024x64 .bf16) (k : FVec Ideal S2048x64 .bf16) : FVec Ideal S1024x2048 .f32 :=
  mulf (matmul dot_S1024x64_S2048x64_S1024x2048_1_1_0_0_n_n none q k (constant S1024x2048 .f32 0x00000000#32))
    (broadcast S1024x2048 (Scalar.ofBits .f32 0x3E000000#32))

/-- The unnormalised weights: the exponential of each score less its row's maximum. -/
def wgt (q : FVec Ideal S1024x64 .bf16) (k : FVec Ideal S2048x64 .bf16) : FVec Ideal S1024x2048 .f32 :=
  exp (subf (sc q k) (broadcastTo S1024x2048
    (shapeCast S1024x1 (multiReduction .maximumf [1] S1024 (sc q k) 0xFF800000#32 reduces_S1024x2048_S1024 (.inl rfl) rfl)
      shapeCasts_S1024_S1024x1) broadcasts_S1024x1_S1024x2048))

/-- Each row's sum of weights, repeated along the 64 head coordinates. -/
def den (q : FVec Ideal S1024x64 .bf16) (k : FVec Ideal S2048x64 .bf16) : FVec Ideal S1024x64 .f32 :=
  broadcastTo S1024x64
    (shapeCast S1024x1 (multiReduction .add [1] S1024 (wgt q k) 0x00000000#32 reduces_S1024x2048_S1024 (.inl rfl) rfl)
      shapeCasts_S1024_S1024x1) broadcasts_S1024x1_S1024x64

/-- The weights against the value slice. -/
def num (q : FVec Ideal S1024x64 .bf16) (k v : FVec Ideal S2048x64 .bf16) : FVec Ideal S1024x64 .f32 :=
  matmul dot_S1024x2048_S2048x64_S1024x64_1_0_0_1_n_n none (truncf .bf16 (wgt q k) bitsLt_bf16_f32) v
    (constant S1024x64 .f32 0x00000000#32)

section Half

variable (q : FVec Ideal S1024x64 .bf16) (k v : FVec Ideal S2048x64 .bf16)
  (qrow : Fin 128 → EReal) (krow vrow : Fin 2048 → Fin 128 → EReal) (hf : Fin 2) (r : Fin 1024)
  (hq : ∀ d : Fin 64, q (ix2 r d) = qrow (lane hf d))
  (hk : ∀ (t : Fin 2048) (d : Fin 64), k (ix2 t d) = krow t (lane hf d))
  (hv : ∀ (t : Fin 2048) (d : Fin 64), v (ix2 t d) = vrow t (lane hf d))

include hq hk in
/-- A score: the sum over the 64 head coordinates of query times key, scaled. -/
theorem sc_apply (t : Fin 2048) : sc q k (ix2 r t) = scoreRow qrow krow hf t := by
  show FloatOps.matmul dot_S1024x64_S2048x64_S1024x2048_1_1_0_0_n_n none q k (constant S1024x2048 .f32 0x00000000#32) (ix2 r t) * scale = _
  refine congrArg (· * scale) ?_
  refine (Cert.LibMatmulNT.matmul_nt_zero_apply (m := 1024) (k := 64) (n := 2048) dot_S1024x64_S2048x64_S1024x2048_1_1_0_0_n_n none q k rfl rfl
    (fun _ _ => rfl) (fun _ _ => rfl) (fun _ _ => rfl) (fun _ _ => rfl) r t).trans ?_
  exact Finset.sum_congr rfl fun d _ => by rw [hq d, hk t d]

include hq hk in
/-- A weight: the exponential of the score less the largest score of the row. -/
theorem wgt_apply (t : Fin 2048) : wgt q k (ix2 r t) = wgtRow qrow krow hf t := by
  show Ideal.exp (sc q k (ix2 r t) - broadcastTo S1024x2048
    (shapeCast S1024x1 (multiReduction .maximumf [1] S1024 (sc q k) 0xFF800000#32 reduces_S1024x2048_S1024 (.inl rfl) rfl)
      shapeCasts_S1024_S1024x1) broadcasts_S1024x1_S1024x2048 (ix2 r t))
    = Ideal.exp (scoreRow qrow krow hf t - maxRow qrow krow hf)
  rw [sc_apply q k qrow krow hf r hq hk t]
  refine congrArg (fun m => Ideal.exp (scoreRow qrow krow hf t - m)) ?_
  refine (Cert.LibColumn.broadcastTo_a1_ab_apply (a := 1024) (b := 2048) _ broadcasts_S1024x1_S1024x2048 r t).trans ?_
  refine (Cert.LibUnitColumn.shapeCast_a_a1_apply (a := 1024) _ shapeCasts_S1024_S1024x1 r 0).trans ?_
  refine (Cert.LibRowMax.rowMax_apply (a := 1024) (b := 2048) (sc q k) 0xFF800000#32 reduces_S1024x2048_S1024 (.inl rfl) rfl r).trans ?_
  exact Finset.fold_congr fun t' _ => sc_apply q k qrow krow hf r hq hk t'

include hq hk in
/-- The denominator: the sum of the row's weights, whatever the head coordinate. -/
theorem den_apply (d : Fin 64) : den q k (ix2 r d) = denomRow qrow krow hf := by
  refine (Cert.LibColumn.broadcastTo_a1_ab_apply (a := 1024) (b := 64) _ broadcasts_S1024x1_S1024x64 r d).trans ?_
  refine (Cert.LibUnitColumn.shapeCast_a_a1_apply (a := 1024) _ shapeCasts_S1024_S1024x1 r 0).trans ?_
  refine (Cert.LibRowOps.rowSum_apply (a := 1024) (b := 2048) (wgt q k) reduces_S1024x2048_S1024 (.inl rfl) rfl r).trans ?_
  exact Finset.sum_congr rfl fun t _ => wgt_apply q k qrow krow hf r hq hk t

include hq hk hv in
/-- The numerator: the sum over the key rows of weight times value. -/
theorem num_apply (d : Fin 64) :
    num q k v (ix2 r d) = ∑ t : Fin 2048, wgtRow qrow krow hf t * vrow t (lane hf d) := by
  refine (Cert.LibRowOps.matmul_zero_apply (m := 1024) (k := 2048) (n := 64) dot_S1024x2048_S2048x64_S1024x64_1_0_0_1_n_n none
    (truncf .bf16 (wgt q k) bitsLt_bf16_f32) v rfl rfl
    (fun _ _ => rfl) (fun _ _ => rfl) (fun _ _ => rfl) (fun _ _ => rfl) r d).trans ?_
  refine Finset.sum_congr rfl fun t _ => ?_
  rw [hv t d]
  exact congrArg (· * vrow t (lane hf d)) (wgt_apply q k qrow krow hf r hq hk t)

include hq hk hv in
/-- The quotient of the two: one attention entry. -/
theorem quot_apply (d : Fin 64) :
    divf (num q k v) (den q k) (ix2 r d) = attnCore qrow krow vrow hf d := by
  show Ideal.div (num q k v (ix2 r d)) (den q k (ix2 r d)) = Ideal.div _ _
  rw [num_apply q k v qrow krow vrow hf r hq hk hv d, den_apply q k qrow krow hf r hq hk d]

end Half

/-! ## The blocks' slices

A block [1, a, 128] viewed as [a, 128] and cut to the 64 lanes from offset 0 or 64 reads `(p, d)` at the block's
`(0, p, lane hf d)`. -/

/-- A 64-lane slice of an [a, 128] array from lane offset `hf · 64` reads `(p, d)` at lane `lane hf d`. -/
theorem slice_lane {a : ℕ} (x : FVec Ideal ⟨2, ![a, 128]⟩ .bf16) (o : ℕ)
    (h : (⟨2, ![a, 128]⟩ : Shape).Slices ![0, o] ⟨2, ![a, 64]⟩) (hf : Fin 2) (ho : o = hf.val * 64)
    (p : Fin a) (d : Fin 64) :
    extractStridedSlice ⟨2, ![a, 64]⟩ ![0, o] x h (ix2 p d) = x (ix2 p (lane hf d)) :=
  extractStridedSlice_apply ![0, o] x h (ix2 p d) (ix2 p (lane hf d)) fun ax => by
    match ax with
    | ⟨0, _⟩ => exact (Nat.zero_add _).symm
    | ⟨1, _⟩ => show hf.val * 64 + d.val = o + d.val; rw [ho]

variable (x0 : Vec Ideal S1x1024x128 .bf16) (x1 x2 : Vec Ideal S1x2048x128 .bf16)

/-- The query block's slice of head-half 0. -/
theorem q0_apply (r : Fin 1024) (d : Fin 64) :
    extractStridedSlice S1024x64 ![0, 0] (k1_pay2 x0) slices_S1024x128_o0_0_S1024x64 (ix2 r d) = x0 (ix3 0 r (lane 0 d)) :=
  (slice_lane (a := 1024) (k1_pay2 x0) 0 slices_S1024x128_o0_0_S1024x64 0 rfl r d).trans
    (Cert.LibUnitAxis.dropUnit_apply x0 shapeCasts_S1x1024x128_S1024x128 r (lane 0 d))

/-- The query block's slice of head-half 1. -/
theorem q1_apply (r : Fin 1024) (d : Fin 64) :
    extractStridedSlice S1024x64 ![0, 64] (k1_pay2 x0) slices_S1024x128_o0_64_S1024x64 (ix2 r d) = x0 (ix3 0 r (lane 1 d)) :=
  (slice_lane (a := 1024) (k1_pay2 x0) 64 slices_S1024x128_o0_64_S1024x64 1 rfl r d).trans
    (Cert.LibUnitAxis.dropUnit_apply x0 shapeCasts_S1x1024x128_S1024x128 r (lane 1 d))

/-- A key or value block's slice of head-half 0 (`k1_pay3` and `k1_pay4` are the same view). -/
theorem k0_apply (t : Fin 2048) (d : Fin 64) :
    extractStridedSlice S2048x64 ![0, 0] (k1_pay3 x1) slices_S2048x128_o0_0_S2048x64 (ix2 t d) = x1 (ix3 0 t (lane 0 d)) :=
  (slice_lane (a := 2048) (k1_pay3 x1) 0 slices_S2048x128_o0_0_S2048x64 0 rfl t d).trans
    (Cert.LibUnitAxis.dropUnit_apply x1 shapeCasts_S1x2048x128_S2048x128 t (lane 0 d))

/-- A key or value block's slice of head-half 1. -/
theorem k1_apply (t : Fin 2048) (d : Fin 64) :
    extractStridedSlice S2048x64 ![0, 64] (k1_pay3 x1) slices_S2048x128_o0_64_S2048x64 (ix2 t d) = x1 (ix3 0 t (lane 1 d)) :=
  (slice_lane (a := 2048) (k1_pay3 x1) 64 slices_S2048x128_o0_64_S2048x64 1 rfl t d).trans
    (Cert.LibUnitAxis.dropUnit_apply x1 shapeCasts_S1x2048x128_S2048x128 t (lane 1 d))

/-! ## The payloads at an index -/

/-- Head-half 0's entry `(r, d)`. -/
theorem pay5_apply (r : Fin 1024) (d : Fin 64) :
    k1_pay5 x0 x1 x2 (ix2 r d)
      = attnCore (fun l => x0 (ix3 0 r l)) (fun t l => x1 (ix3 0 t l)) (fun t l => x2 (ix3 0 t l)) 0 d :=
  quot_apply _ _ _ (fun l => x0 (ix3 0 r l)) (fun t l => x1 (ix3 0 t l)) (fun t l => x2 (ix3 0 t l)) 0 r
    (fun d => q0_apply x0 r d) (fun t d => k0_apply x1 t d) (fun t d => k0_apply x2 t d) d

/-- Head-half 1's weight `(r, t)`. -/
theorem pay6_apply (r : Fin 1024) (t : Fin 2048) :
    k1_pay6 x0 x1 (ix2 r t) = wgtRow (fun l => x0 (ix3 0 r l)) (fun t l => x1 (ix3 0 t l)) 1 t :=
  wgt_apply _ _ (fun l => x0 (ix3 0 r l)) (fun t l => x1 (ix3 0 t l)) 1 r
    (fun d => q1_apply x0 r d) (fun t d => k1_apply x1 t d) t

/-- Head-half 1's numerator `(r, d)`. -/
theorem pay7_apply (r : Fin 1024) (d : Fin 64) :
    k1_pay7 x0 x1 x2 (ix2 r d)
      = ∑ t : Fin 2048, wgtRow (fun l => x0 (ix3 0 r l)) (fun t l => x1 (ix3 0 t l)) 1 t * x2 (ix3 0 t (lane 1 d)) :=
  num_apply _ _ _ (fun l => x0 (ix3 0 r l)) (fun t l => x1 (ix3 0 t l)) (fun t l => x2 (ix3 0 t l)) 1 r
    (fun d => q1_apply x0 r d) (fun t d => k1_apply x1 t d) (fun t d => k1_apply x2 t d) d

/-- Head-half 1's denominator `(r, d)`. -/
theorem pay8_apply (r : Fin 1024) (d : Fin 64) :
    k1_pay8 x0 x1 (ix2 r d) = denomRow (fun l => x0 (ix3 0 r l)) (fun t l => x1 (ix3 0 t l)) 1 :=
  den_apply _ _ (fun l => x0 (ix3 0 r l)) (fun t l => x1 (ix3 0 t l)) 1 r
    (fun d => q1_apply x0 r d) (fun t d => k1_apply x1 t d) d

/-- The stored block at lane `lane hf d` of row `r`: head-half `hf`'s entry `d`. -/
theorem pay_lane (z : Fin 1) (r : Fin 1024) (hf : Fin 2) (d : Fin 64) :
    k1_pay1 (k1_pay5 x0 x1 x2) (k1_pay7 x0 x1 x2) (k1_pay8 x0 x1) (ix3 z r (lane hf d))
      = attnCore (fun l => x0 (ix3 0 r l)) (fun t l => x1 (ix3 0 t l)) (fun t l => x2 (ix3 0 t l)) hf d := by
  show shapeCast S1x1024x128 (concatenate S1024x128 1
      [⟨S1024x64, k1_pay5 x0 x1 x2⟩, ⟨S1024x64, divf (k1_pay7 x0 x1 x2) (k1_pay8 x0 x1)⟩]
      concatenates_S1024x64_S1024x64_S1024x128_d1) shapeCasts_S1024x128_S1x1024x128 (ix3 z r (lane hf d)) = _
  refine (Cert.LibUnitAxis.addUnit_apply (a := 1024) (b := 128) _ shapeCasts_S1024x128_S1x1024x128 z r (lane hf d)).trans ?_
  match hf with
  | ⟨0, _⟩ =>
    refine (Cert.LibConcat2.last2_left (n0 := 1024) (m1 := 64) (m2 := 64) (m := 128) (k1_pay5 x0 x1 x2)
      (divf (k1_pay7 x0 x1 x2) (k1_pay8 x0 x1))
      concatenates_S1024x64_S1024x64_S1024x128_d1 r (lane 0 d) (by show 0 * 64 + d.val < 64; omega)).trans ?_
    have e : (⟨(lane 0 d).val, by show 0 * 64 + d.val < 64; omega⟩ : Fin 64) = d := Fin.ext (by show 0 * 64 + d.val = d.val; omega)
    rw [e]
    exact pay5_apply x0 x1 x2 r d
  | ⟨1, _⟩ =>
    refine (Cert.LibConcat2.last2_right (n0 := 1024) (m1 := 64) (m2 := 64) (m := 128) (k1_pay5 x0 x1 x2)
      (divf (k1_pay7 x0 x1 x2) (k1_pay8 x0 x1))
      concatenates_S1024x64_S1024x64_S1024x128_d1 r (lane 1 d) (by show 64 ≤ 1 * 64 + d.val; omega)
      (by show 1 * 64 + d.val - 64 < 64; omega)).trans ?_
    have e : (⟨(lane 1 d).val - 64, by show 1 * 64 + d.val - 64 < 64; omega⟩ : Fin 64) = d := Fin.ext (by show 1 * 64 + d.val - 64 = d.val; omega)
    rw [e]
    show Ideal.div (k1_pay7 x0 x1 x2 (ix2 r d)) (k1_pay8 x0 x1 (ix2 r d)) = Ideal.div _ _
    rw [pay7_apply x0 x1 x2 r d, pay8_apply x0 x1 r d]
    rfl

/-- The stored block at `(z, r, j)`: lane `j` is head-half `j / 64`, head coordinate `j % 64`. -/
theorem pay_apply (z : Fin 1) (r : Fin 1024) (j : Fin 128) :
    k1_pay1 (k1_pay5 x0 x1 x2) (k1_pay7 x0 x1 x2) (k1_pay8 x0 x1) (ix3 z r j)
      = attnCore (fun l => x0 (ix3 0 r l)) (fun t l => x1 (ix3 0 t l)) (fun t l => x2 (ix3 0 t l))
          (⟨j.val / 64, by omega⟩ : Fin 2) (⟨j.val % 64, by omega⟩ : Fin 64) := by
  have hj : j = lane (⟨j.val / 64, by omega⟩ : Fin 2) (⟨j.val % 64, by omega⟩ : Fin 64) :=
    Fin.ext (by show j.val = j.val / 64 * 64 + j.val % 64; omega)
  exact (congrArg (fun j' => k1_pay1 (k1_pay5 x0 x1 x2) (k1_pay7 x0 x1 x2) (k1_pay8 x0 x1) (ix3 z r j')) hj).trans
    (pay_lane x0 x1 x2 z r _ _)

end Cert.KernelIdeal.AttnBody

end
-- ==== Proof.AttnRegion.lean ====
/-
  The attention kernel's output array, from its blocks.

  The grid has 16 row blocks (two heads each) times 2 halves of the 2048 query rows.  Point `(bh, si)` reads the
  query block: rows `si·1024 … si·1024 + 1023` of row block `bh`; the whole key and value row blocks `bh`; and writes
  rows `si·1024 …` and lanes `(bh % 8)·128 …` of sequence `bh / 8` of the [2, 2048, 1024] output.  Entry `(0, r, l)` of what
  a point writes is one attention entry of the blocks' rows (the body's value, taken as a hypothesis `hpay` here), and
  a block's row IS the array's row, so the entry is `attnArrAt` of the three arrays at the entry's place in the
  output.  The 32 blocks tile the output: entry `(b, s, a)` is in the block of point `(8·b + a / 128, s / 1024)`.
-/
import proofs.«108100_j55834574848209_2_alg».proof.Proof.Gen.KernelIdeal.Frame
import proofs.«108100_j55834574848209_2_alg».proof.Proof.Spec
import proofs.«108100_j55834574848209_2_alg».proof.Proof.AttnBody
import Idealize.ShloMosaic.Lib.Pipeline.Value
import Idealize.ShloMosaic.Lib.ValueIdx

set_option maxRecDepth 16384

noncomputable section

namespace Cert.KernelIdeal.AttnRegion

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (V : (c : Dev nD) → (b : Ref sig .tc) → Buf (Elt Ideal) ((c : Thread nD τ).loc b))

theorem hz3 : (![0, 0, 0] : Fin 3 → Nat) = fun _ => 0 := funext fun a => by fin_cases a <;> rfl

/-- The body's value at an entry of the block it writes, as a statement about any three blocks. -/
def PayApply : Prop :=
  ∀ (x0 : Vec Ideal S1x1024x128 .bf16) (x1 x2 : Vec Ideal S1x2048x128 .bf16) (z : Fin 1) (r : Fin 1024) (j : Fin 128),
    k1_pay1 (k1_pay5 x0 x1 x2) (k1_pay7 x0 x1 x2) (k1_pay8 x0 x1) (ix3 z r j)
      = attnCore (fun l => x0 (ix3 0 r l)) (fun t l => x1 (ix3 0 t l)) (fun t l => x2 (ix3 0 t l))
          (⟨j.val / 64, by omega⟩ : Fin 2) (⟨j.val % 64, by omega⟩ : Fin 64)

/-- The index maps over the grid: the query block moves with the output block (row block `8·b + p`, half `si`), the key
    and value blocks are the whole row block. -/
theorem idx_facts : ∀ t : Fin cfg1.N,
    win1_0.index t (0 : Fin 3) = win1_3.index t (0 : Fin 3) * 8 + win1_3.index t (2 : Fin 3)
    ∧ win1_0.index t (1 : Fin 3) = win1_3.index t (1 : Fin 3)
    ∧ win1_0.index t (2 : Fin 3) = 0
    ∧ win1_1.index t (0 : Fin 3) = win1_3.index t (0 : Fin 3) * 8 + win1_3.index t (2 : Fin 3)
    ∧ win1_1.index t (1 : Fin 3) = 0
    ∧ win1_1.index t (2 : Fin 3) = 0
    ∧ win1_2.index t (0 : Fin 3) = win1_3.index t (0 : Fin 3) * 8 + win1_3.index t (2 : Fin 3)
    ∧ win1_2.index t (1 : Fin 3) = 0
    ∧ win1_2.index t (2 : Fin 3) = 0
    ∧ win1_3.index t (0 : Fin 3) ≤ 1 ∧ win1_3.index t (1 : Fin 3) ≤ 1 ∧ win1_3.index t (2 : Fin 3) ≤ 7 :=
  (by decide +kernel : ∀ t : Fin grid1.N, _)

/-- Every block of the output is some point's. -/
theorem idx_onto : ∀ (q0 : Fin 2) (q1 : Fin 2) (q2 : Fin 8), ∃ t : Fin cfg1.N, win1_3.index t = ![q0.val, q1.val, q2.val] :=
  (by decide +kernel : ∀ (q0 : Fin 2) (q1 : Fin 2) (q2 : Fin 8), ∃ t : Fin grid1.N, win1_3.index t = ![q0.val, q1.val, q2.val])

/-- An attention entry of the output array, from any spelling of its row block, head-half and head coordinate. -/
theorem attnArrAt_of (q k v : SQ.Idx → EReal) (b : Fin 2) (s : Fin 2048) (a : Fin 1024) (bp : Fin 16) (hf : Fin 2) (d : Fin 64)
    (hbp : bp.val = b.val * 8 + a.val / 128) (hhf : hf.val = a.val % 128 / 64) (hd : d.val = a.val % 64) :
    attnArrAt q k v b s a
      = attnCore (fun l => q (ix3 bp s l)) (fun t l => k (ix3 bp t l)) (fun t l => v (ix3 bp t l)) hf d := by
  have hb16 : b.val * 8 + a.val / 128 < 16 := by clear hbp hhf hd; have h1 := b.isLt; have h2 := a.isLt; omega
  have hh2 : a.val % 128 / 64 < 2 := by clear hbp hhf hd; omega
  have hd64 : a.val % 64 < 64 := by clear hbp hhf hd; omega
  obtain rfl : bp = ⟨_, hb16⟩ := Fin.ext hbp
  obtain rfl : hf = ⟨_, hh2⟩ := Fin.ext hhf
  obtain rfl : d = ⟨_, hd64⟩ := Fin.ext hd
  rfl

/-- WHAT POINT `t` WRITES BACK is block `t` of the attention output of the three arrays as the region finds them. -/
theorem flushed_eq (hpay : PayApply) (c : Dev nD) (t : Fin cfg1.N) :
    (dat1 (F := Ideal) V c).flushed 3 t
      = ((cfg1.win 3).blk t).view.read (Elt Ideal) (attnArr (V c main_v1_0) (V c main_v1_1) (V c main_v1_2)) := by
  show (cfg1.win 3).cut (grid1.coords t) ((dat1 V c).after 3 t) = _
  rw [after1_3]
  unfold out1_3
  rw [View.canon_unit_zero hz3]
  simp only [View.ld_unit_zero (S := S1x1024x128) hz3, View.ld_unit_zero (S := S1x2048x128) hz3]
  obtain ⟨e0, e1, e2, e3, e4, e5, e6, e7, e8, b0, b1, b2⟩ := idx_facts t
  funext j
  obtain ⟨z, r, l, rfl⟩ : ∃ (z : Fin 1) (r : Fin 1024) (l : Fin 128), j = ix3 z r l := ⟨j 0, j 1, j 2, eq_ix3 j⟩
  have hz : z.val = 0 := by omega
  have hr := r.isLt
  have hl := l.isLt
  refine (hpay (iblk1 V c 0 t) (iblk1 V c 1 t) (iblk1 V c 2 t) z r l).trans ?_
  rw [View.read_apply]
  have i0 : ((((cfg1.win 3).blk t).view.emb (ix3 z r l)) 0).val = win1_3.index t (0 : Fin 3) * 1 + 1 * z.val := rfl
  have i1 : ((((cfg1.win 3).blk t).view.emb (ix3 z r l)) 1).val = win1_3.index t (1 : Fin 3) * 1024 + 1 * r.val := rfl
  have i2 : ((((cfg1.win 3).blk t).view.emb (ix3 z r l)) 2).val = win1_3.index t (2 : Fin 3) * 128 + 1 * l.val := rfl
  have hbp16 : win1_3.index t (0 : Fin 3) * 8 + win1_3.index t (2 : Fin 3) < 16 := by omega
  refine Eq.trans ?_ (attnArrAt_of (V c main_v1_0) (V c main_v1_1) (V c main_v1_2)
    ((((cfg1.win 3).blk t).view.emb (ix3 z r l)) 0) ((((cfg1.win 3).blk t).view.emb (ix3 z r l)) 1) ((((cfg1.win 3).blk t).view.emb (ix3 z r l)) 2)
    (⟨win1_3.index t (0 : Fin 3) * 8 + win1_3.index t (2 : Fin 3), hbp16⟩ : Fin 16)
    (⟨l.val / 64, by omega⟩ : Fin 2) (⟨l.val % 64, by omega⟩ : Fin 64)
    (by rw [i0, i2]; show win1_3.index t (0 : Fin 3) * 8 + win1_3.index t (2 : Fin 3) = _; omega)
    (by rw [i2]; show l.val / 64 = _; omega)
    (by rw [i2]; show l.val % 64 = _; omega)).symm
  have h0 : (fun l' : Fin 128 => (iblk1 V c 0 t : Vec Ideal S1x1024x128 .bf16) (ix3 0 r l'))
      = (fun l' : Fin 128 => (V c main_v1_0 : S16x2048x128.Idx → EReal) (ix3 (⟨win1_3.index t (0 : Fin 3) * 8 + win1_3.index t (2 : Fin 3), hbp16⟩ : Fin 16)
          ((((cfg1.win 3).blk t).view.emb (ix3 z r l)) 1) l')) := funext fun l' => by
    unfold iblk1
    rw [View.read_apply]
    show V c main_v1_0 _ = V c main_v1_0 _
    refine congrArg _ (funext fun a => Fin.ext ?_)
    have hl' := l'.isLt
    match a with
    | ⟨0, _⟩ => show win1_0.index t (0 : Fin 3) * 1 + 1 * 0 = win1_3.index t (0 : Fin 3) * 8 + win1_3.index t (2 : Fin 3); omega
    | ⟨1, _⟩ => show win1_0.index t (1 : Fin 3) * 1024 + 1 * r.val = ((((cfg1.win 3).blk t).view.emb (ix3 z r l)) 1).val; rw [i1]; omega
    | ⟨2, _⟩ => show win1_0.index t (2 : Fin 3) * 128 + 1 * l'.val = l'.val; omega
  have h1 : (fun (t' : Fin 2048) (l' : Fin 128) => (iblk1 V c 1 t : Vec Ideal S1x2048x128 .bf16) (ix3 0 t' l'))
      = (fun (t' : Fin 2048) (l' : Fin 128) => (V c main_v1_1 : S16x2048x128.Idx → EReal) (ix3 (⟨win1_3.index t (0 : Fin 3) * 8 + win1_3.index t (2 : Fin 3), hbp16⟩ : Fin 16) t' l')) :=
    funext fun t' => funext fun l' => by
    unfold iblk1
    rw [View.read_apply]
    show V c main_v1_1 _ = V c main_v1_1 _
    refine congrArg _ (funext fun a => Fin.ext ?_)
    have hl' := l'.isLt
    have ht' := t'.isLt
    match a with
    | ⟨0, _⟩ => show win1_1.index t (0 : Fin 3) * 1 + 1 * 0 = win1_3.index t (0 : Fin 3) * 8 + win1_3.index t (2 : Fin 3); omega
    | ⟨1, _⟩ => show win1_1.index t (1 : Fin 3) * 2048 + 1 * t'.val = t'.val; omega
    | ⟨2, _⟩ => show win1_1.index t (2 : Fin 3) * 128 + 1 * l'.val = l'.val; omega
  have h2 : (fun (t' : Fin 2048) (l' : Fin 128) => (iblk1 V c 2 t : Vec Ideal S1x2048x128 .bf16) (ix3 0 t' l'))
      = (fun (t' : Fin 2048) (l' : Fin 128) => (V c main_v1_2 : S16x2048x128.Idx → EReal) (ix3 (⟨win1_3.index t (0 : Fin 3) * 8 + win1_3.index t (2 : Fin 3), hbp16⟩ : Fin 16) t' l')) :=
    funext fun t' => funext fun l' => by
    unfold iblk1
    rw [View.read_apply]
    show V c main_v1_2 _ = V c main_v1_2 _
    refine congrArg _ (funext fun a => Fin.ext ?_)
    have hl' := l'.isLt
    have ht' := t'.isLt
    match a with
    | ⟨0, _⟩ => show win1_2.index t (0 : Fin 3) * 1 + 1 * 0 = win1_3.index t (0 : Fin 3) * 8 + win1_3.index t (2 : Fin 3); omega
    | ⟨1, _⟩ => show win1_2.index t (1 : Fin 3) * 2048 + 1 * t'.val = t'.val; omega
    | ⟨2, _⟩ => show win1_2.index t (2 : Fin 3) * 128 + 1 * l'.val = l'.val; omega
  exact (congrArg (fun f => attnCore f _ _ (⟨l.val / 64, by omega⟩ : Fin 2) (⟨l.val % 64, by omega⟩ : Fin 64)) h0).trans
    ((congrArg (fun g => attnCore _ g _ (⟨l.val / 64, by omega⟩ : Fin 2) (⟨l.val % 64, by omega⟩ : Fin 64)) h1).trans
      (congrArg (fun h => attnCore _ _ h (⟨l.val / 64, by omega⟩ : Fin 2) (⟨l.val % 64, by omega⟩ : Fin 64)) h2))

/-- An index of the output is in point `t`'s block iff each coordinate is in the block's range on its axis. -/
theorem mem_blk (t : Fin cfg1.N) (i : S2x2048x1024.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v2).slice (win1_3.rect t)).set ↔ _
  rw [View.set_slice_whole, Rect.mem_set_unit]
  exact Iff.rfl

/-- The 32 blocks tile the output. -/
theorem cover (i : S2x2048x1024.Idx) : ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩ ⟨(i 2).val / 128, by omega⟩
  have q0 : win1_3.index t (0 : Fin 3) = (i 0).val := congrFun ht 0
  have q1 : win1_3.index t (1 : Fin 3) = (i 1).val / 1024 := congrFun ht 1
  have q2 : win1_3.index t (2 : Fin 3) = (i 2).val / 128 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- THE OUTPUT ARRAY after the region: the attention output of the three projected arrays as the region finds them. -/
theorem final_o (hpay : PayApply) (c : Dev nD) :
    (dat1 (F := Ideal) V c).arrAt 3 cfg1.N = attnArr (V c main_v1_0) (V c main_v1_1) (V c main_v1_2) :=
  (dat1 (F := Ideal) V c).arrAt_eq_of_cover 3 _ (fun t _ => flushed_eq V hpay c t) cover

/-- The same with the body's value supplied. -/
theorem final (c : Dev nD) :
    (dat1 (F := Ideal) V c).arrAt 3 cfg1.N = attnArr (V c main_v1_0) (V c main_v1_1) (V c main_v1_2) :=
  final_o V (fun x0 x1 x2 z r j => Cert.KernelIdeal.AttnBody.pay_apply x0 x1 x2 z r j) c

end Cert.KernelIdeal.AttnRegion

end
-- ==== Proof.ProjRegion.lean ====
/-
  The output projection region: from what each grid point writes back to the projected array.

  The grid is 4 x 1; point (i, 0) multiplies rows i*1024 .. i*1024 + 1023 of the [4096, 1024] attention output against
  the rows of the whole [1024, 1024] output weight and writes the [1024, 1024] product as row block i of the result.
  Entry (p, q) of the product is the sum over k of o(i*1024 + p, k) times w(q, k); rounding the operands to the
  narrower float format is the identity over the extended reals.  The four row blocks tile the result, so the
  result is the one function projArr of the attention output and the weight as the region finds them.
-/
import proofs.«108100_j55834574848209_2_alg».proof.Proof.Gen.KernelIdeal.Frame
import proofs.«108100_j55834574848209_2_alg».proof.Proof.Spec
import proofs.«108100_j55834574848209_2_alg».proof.Proof.LibMatmulNT
import Idealize.ShloMosaic.Lib.Pipeline.Value

noncomputable section

namespace Cert.KernelIdeal.ProjRegion

open Cert.KernelIdeal Cert.KernelIdeal.Gen Cert.Attn Idealize.ShloMosaic Idealize.ShloMosaic.TcCoe Idealize.SL.Sem
open Idealize.ShloMosaic.ValueIdx
open Idealize.ShloMosaic.Pipeline (Dat)

/-! ## The product's dimension numbers: rows of the left operand, rows of the right, both contracted on axis 1 -/

abbrev dotP : DotDims S1024x1024 S1024x1024 S1024x1024 := dot_S1024x1024_S1024x1024_S1024x1024_1_1_0_0_n_n

theorem dotP_lhs0 (j : S1024x1024.Idx) (q : dotP.contr.Idx) : (dotP.lhsIdx j q 0).val = (j 0).val := by
  unfold DotDims.lhsIdx
  rw [dif_neg (show ¬(0 : Fin S1024x1024.rank) ∈ dotP.lhsBatch by decide),
    dif_pos (show (0 : Fin S1024x1024.rank) ∈ dotP.lhsNonContracting by decide)]
  rfl

theorem dotP_lhs1 (j : S1024x1024.Idx) (q : dotP.contr.Idx) : (dotP.lhsIdx j q 1).val = (q ⟨0, by decide⟩).val :=
  dotP.lhsIdx_val_of_single rfl j q

theorem dotP_rhs0 (j : S1024x1024.Idx) (q : dotP.contr.Idx) : (dotP.rhsIdx j q 0).val = (j 1).val := by
  unfold DotDims.rhsIdx
  rw [dif_neg (show ¬(0 : Fin S1024x1024.rank) ∈ dotP.rhsBatch by decide),
    dif_pos (show (0 : Fin S1024x1024.rank) ∈ dotP.rhsNonContracting by decide)]
  rfl

theorem dotP_rhs1 (j : S1024x1024.Idx) (q : dotP.contr.Idx) : (dotP.rhsIdx j q 1).val = (q ⟨0, by decide⟩).val :=
  dotP.rhsIdx_val_of_single rfl j q

/-! ## One point's product at an entry -/

/-- Entry (p, q) of a point's product: row p of its block of the attention output against row q of the weight. -/
theorem pay_apply (x : Vec Ideal S1024x1024 .f32) (w : Vec Ideal S1024x1024 .f32) (p q : Fin 1024) :
    k2_pay1 (F := Ideal) x w (ix2 p q) = ∑ k : Fin 1024, x (ix2 p k) * w (ix2 q k) := by
  unfold k2_pay1
  refine (LibMatmulNT.matmul_nt_zero_apply dotP none
    (truncf .bf16 (shapeCast S1024x1024 x shapeCasts_S1024x1024_S1024x1024) bitsLt_bf16_f32)
    (truncf .bf16 w bitsLt_bf16_f32) rfl rfl dotP_lhs0 dotP_lhs1 dotP_rhs0 dotP_rhs1 p q).trans ?_
  refine Finset.sum_congr rfl fun k _ => ?_
  show shapeCast S1024x1024 x shapeCasts_S1024x1024_S1024x1024 (ix2 p k) * w (ix2 q k) = _
  rw [shapeCast_self x shapeCasts_S1024x1024_S1024x1024]

/-! ## Where a point's blocks sit -/

theorem zero2 : (![0, 0] : Fin 2 → Nat) = fun _ => 0 := funext fun a => by fin_cases a <;> rfl

/-- The block indices at a point, decided over the four points: the attention output's block moves with the
    result's row block, and the weight's one block is the whole weight. -/
theorem idx_facts : ∀ t : Fin cfg2.N,
    win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 3 ∧ win2_2.index t (1 : Fin 2) = 0 :=
  (by decide +kernel : ∀ t : Fin grid2.N, _)

/-- Every row block is some point's. -/
theorem idx_onto : ∀ q0 : Fin 4, ∃ t : Fin cfg2.N, win2_2.index t = ![q0.val, 0] :=
  (by decide +kernel : ∀ q0 : Fin 4, ∃ t : Fin grid2.N, win2_2.index t = ![q0.val, 0])

/-- A point's product is the block of projArr at its row block, when its left block is those rows of the attention
    output and its right block is the weight. -/
theorem block_entry (O : SF.Idx → EReal) (Wt : SO.Idx → EReal) (x w : Vec Ideal S1024x1024 .f32)
    (p q : Fin 1024) (i : SF.Idx)
    (hx : ∀ k : Fin 1024, x (ix2 p k) = O (ix2 (i 0) k)) (hw : ∀ k : Fin 1024, w (ix2 q k) = Wt (ix2 (i 1) k)) :
    ∑ k : Fin 1024, x (ix2 p k) * w (ix2 q k) = projArr O Wt i :=
  Finset.sum_congr rfl fun k _ => by rw [hx k, hw k]

variable (V : (c : Dev nD) → (b : Ref sig .tc) → Buf (Elt Ideal) ((c : Thread nD τ).loc b))

/-- What a point writes back is its block of projArr. -/
theorem flushed_y (c : Dev nD) (t : Fin cfg2.N) :
    (dat2 (F := Ideal) V c).flushed 2 t
      = ((cfg2.win 2).blk t).view.read (Elt Ideal) (projArr (V c main_v3) (V c main_arg2)) := by
  show (cfg2.win 2).cut (grid2.coords t) ((dat2 V c).after 2 t) = _
  rw [after2_2]
  unfold out2_2
  rw [View.canon_unit_zero zero2]
  simp only [View.ld_unit_zero (S := S1024x1024) zero2]
  obtain ⟨e0, e1, e2, e3, e4, e5⟩ := idx_facts t
  funext y
  have hy := eq_ix2 (n0 := 1024) (n1 := 1024) y
  have hp : (y 0).val < 1024 := idx2_lt0 (n0 := 1024) (n1 := 1024) y
  have hq : (y 1).val < 1024 := idx2_lt1 (n0 := 1024) (n1 := 1024) y
  show k2_pay1 (iblk2 V c 0 t) (iblk2 V c 1 t) y
    = projArr (V c main_v3) (V c main_arg2) (((cfg2.win 2).blk t).view.emb y)
  refine (congrArg (k2_pay1 (F := Ideal) (iblk2 V c 0 t) (iblk2 V c 1 t)) hy).trans ?_
  refine (pay_apply (iblk2 V c 0 t) (iblk2 V c 1 t) (y 0) (y 1)).trans ?_
  refine block_entry (V c main_v3) (V c main_arg2) (iblk2 V c 0 t) (iblk2 V c 1 t) (y 0) (y 1) _ (fun k => ?_) (fun k => ?_)
  · show V c main_v3 (((cfg2.win 0).blk t).view.emb (ix2 (y 0) k)) = _
    refine congrArg (V c main_v3) (funext fun a => Fin.ext ?_)
    match a with
    | ⟨0, _⟩ => show win2_0.index t (0 : Fin 2) * 1024 + 1 * (y 0).val = win2_2.index t (0 : Fin 2) * 1024 + 1 * (y 0).val; omega
    | ⟨1, _⟩ => show win2_0.index t (1 : Fin 2) * 1024 + 1 * k.val = k.val; omega
  · show V c main_arg2 (((cfg2.win 1).blk t).view.emb (ix2 (y 1) k)) = _
    refine congrArg (V c main_arg2) (funext fun a => Fin.ext ?_)
    match a with
    | ⟨0, _⟩ => show win2_1.index t (0 : Fin 2) * 1024 + 1 * (y 1).val = win2_2.index t (1 : Fin 2) * 1024 + 1 * (y 1).val; omega
    | ⟨1, _⟩ => show win2_1.index t (1 : Fin 2) * 1024 + 1 * k.val = k.val; omega

/-- An entry is in a point's block iff each coordinate is in the block's range on its axis. -/
theorem mem_blk_y (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v4).slice (win2_2.rect t)).set ↔ _
  rw [View.set_slice_whole, Rect.mem_set_unit]
  exact Iff.rfl

/-- The four row blocks tile the array: entry (r, e) is in the block of the point whose row block is r / 1024. -/
theorem cover_y (i : S4096x1024.Idx) :
    ∃ t : Fin cfg2.N, (cfg2.win 2).flush t = true ∧ i ∈ ((cfg2.win 2).blk t).view.set := by
  have hi0 : (i 0).val < 4096 := idx2_lt0 (n0 := 4096) (n1 := 1024) i
  have hi1 : (i 1).val < 1024 := idx2_lt1 (n0 := 4096) (n1 := 1024) i
  obtain ⟨t, ht⟩ := idx_onto ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk_y]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The result after the region: the attention output's rows against the rows of the weight. -/
theorem final_y (c : Dev nD) : (Gen.dat2 (F := Ideal) V c).arrAt 2 cfg2.N = projArr (V c main_v3) (V c main_arg2) :=
  (dat2 V c).arrAt_eq_of_cover 2 (projArr (V c main_v3) (V c main_arg2)) (fun t _ => flushed_y V c t) cover_y

end Cert.KernelIdeal.ProjRegion

end
-- ==== Proof.KernelFold.lean ====
/-
  The kernel's result buffer as one function of the three argument arrays.

  The computation is a chain: the [3072, 1024] projection weight is regrouped as three [1024, 1024] slabs; the first
  region projects the activations against each slab (queries, keys, values, in the paired-head layout); the second
  region is the attention of those three arrays; its [2, 2048, 1024] output is regrouped as [4096, 1024] rows; the third
  region multiplies the rows against the rows of the output weight; the product is regrouped back as [2, 2048, 1024].
  Given what each region leaves in its output arrays as a function of what it finds in its input arrays, the result
  buffer is the composition `attnOut`: every buffer is read at the boundary where it was last written, and the three
  regroupings are the row-major index identities.
-/
import proofs.«108100_j55834574848209_2_alg».proof.Proof.Gen.KernelIdeal.Frame
import proofs.«108100_j55834574848209_2_alg».proof.Proof.Spec
import Idealize.ShloMosaic.Lib.Pipeline.Value
import Idealize.ShloMosaic.Lib.StableHlo.Run

set_option maxRecDepth 16384

noncomputable section

namespace Cert.KernelIdeal.KernelFold

open Idealize.ShloMosaic Idealize.ShloMosaic.TcCoe Idealize.ShloMosaic.Tactic
open Idealize.ShloMosaic.ValueIdx
open Cert.Attn

/-! ## The three row-major regroupings, read index by index -/

/-- A [3072, 1024] array regrouped as [3, 1024, 1024]: entry `(a, r, e)` is entry `(a·1024 + r, e)`. -/
theorem reshape_w3 (wq : SWq.Idx → EReal) (h : SWq.ShapeCasts SW) : shapeCast SW wq h = w3 wq := by
  funext i
  obtain ⟨a, r, e, rfl⟩ : ∃ (a : Fin 3) (r : Fin 1024) (e : Fin 1024), i = ix3 a r e := ⟨i 0, i 1, i 2, eq_ix3 i⟩
  refine (shapeCast_apply wq h (ix3 a r e)
    (ix2 (⟨a.val * 1024 + r.val, by have := a.isLt; have := r.isLt; omega⟩ : Fin 3072) e) ?_).trans rfl
  rw [Shape.rowMajor_val_two, Shape.rowMajor_val_three]
  rfl

/-- A [2, 2048, 1024] array regrouped as [4096, 1024]: entry `(r, a)` is entry `(r / 2048, r % 2048, a)`. -/
theorem reshape_flat (o : SX.Idx → EReal) (h : SX.ShapeCasts SF) : shapeCast SF o h = flat o := by
  funext i
  obtain ⟨r, a, rfl⟩ : ∃ (r : Fin 4096) (a : Fin 1024), i = ix2 r a := ⟨i 0, i 1, eq_ix2 i⟩
  refine (shapeCast_apply o h (ix2 r a)
    (ix3 (⟨r.val / 2048, by have := r.isLt; omega⟩ : Fin 2) (⟨r.val % 2048, by omega⟩ : Fin 2048) a) ?_).trans rfl
  rw [Shape.rowMajor_val_two, Shape.rowMajor_val_three]
  show (r.val / 2048 * 2048 + r.val % 2048) * 1024 + a.val = r.val * 1024 + a.val
  omega

/-- A [4096, 1024] array regrouped as [2, 2048, 1024]: entry `(b, s, e)` is entry `(b·2048 + s, e)`. -/
theorem reshape_unflat (y : SF.Idx → EReal) (h : SF.ShapeCasts SX) : shapeCast SX y h = unflat y := by
  funext i
  obtain ⟨b, s, e, rfl⟩ : ∃ (b : Fin 2) (s : Fin 2048) (e : Fin 1024), i = ix3 b s e := ⟨i 0, i 1, i 2, eq_ix3 i⟩
  refine (shapeCast_apply y h (ix3 b s e)
    (ix2 (⟨b.val * 2048 + s.val, by have := b.isLt; have := s.isLt; omega⟩ : Fin 4096) e) ?_).trans rfl
  rw [Shape.rowMajor_val_two, Shape.rowMajor_val_three]
  rfl

/-! ## The boundary contents, walked from the launch to the return

The run's boundary contents are a fold: a host reshape rewrites one buffer and leaves the others, a region rewrites its
output arrays and leaves the others.  Each buffer the result depends on is read where it was last written. -/

section Walk

variable (m : (ℓ : Loc nD τ sig) → Buf (Elt Ideal) ℓ) (ρ : Dev nD → PrngReg) (c : Dev nD)

/-- Entering the first region the activations are as launched: the reshape before it writes another buffer. -/
theorem W1_x : Gen.W1 m ρ c (Proc.devRef .tc main_arg0) = m ((c : Thread nD τ).loc main_arg0) := by
  show StableHlo.after Gen.hostOps0 _ (Proc.devRef .tc main_arg0) = _
  after_results

/-- Entering the first region the weight slabs are the [3072, 1024] projection weight regrouped as three slabs. -/
theorem W1_w : Gen.W1 m ρ c (Proc.devRef .tc main_v0) = w3 (m ((c : Thread nD τ).loc main_arg1)) := by
  show StableHlo.after Gen.hostOps0 _ (Proc.devRef .tc main_v0) = _
  after_results
  exact reshape_w3 _ _

/-- The output weight is as launched when the first region is entered. -/
theorem W1_wo : Gen.W1 m ρ c (Proc.devRef .tc main_arg2) = m ((c : Thread nD τ).loc main_arg2) := by
  show StableHlo.after Gen.hostOps0 _ (Proc.devRef .tc main_arg2) = _
  after_results

section Regions

variable
    (hq : ∀ (V : (c : Dev nD) → (b : Ref sig .tc) → Buf (Elt Ideal) ((c : Thread nD τ).loc b)) (c : Dev nD),
      (Gen.dat0 (F := Ideal) V c).arrAt 2 cfg0.N = qkvArr 0 (V c main_arg0) (V c main_v0))
    (hk : ∀ (V : (c : Dev nD) → (b : Ref sig .tc) → Buf (Elt Ideal) ((c : Thread nD τ).loc b)) (c : Dev nD),
      (Gen.dat0 (F := Ideal) V c).arrAt 3 cfg0.N = qkvArr 1 (V c main_arg0) (V c main_v0))
    (hv : ∀ (V : (c : Dev nD) → (b : Ref sig .tc) → Buf (Elt Ideal) ((c : Thread nD τ).loc b)) (c : Dev nD),
      (Gen.dat0 (F := Ideal) V c).arrAt 4 cfg0.N = qkvArr 2 (V c main_arg0) (V c main_v0))
    (ho : ∀ (V : (c : Dev nD) → (b : Ref sig .tc) → Buf (Elt Ideal) ((c : Thread nD τ).loc b)) (c : Dev nD),
      (Gen.dat1 (F := Ideal) V c).arrAt 3 cfg1.N = attnArr (V c main_v1_0) (V c main_v1_1) (V c main_v1_2))
    (hy : ∀ (V : (c : Dev nD) → (b : Ref sig .tc) → Buf (Elt Ideal) ((c : Thread nD τ).loc b)) (c : Dev nD),
      (Gen.dat2 (F := Ideal) V c).arrAt 2 cfg2.N = projArr (V c main_v3) (V c main_arg2))

include hq in
/-- Leaving the first region the query array is the projection of the activations against slab 0. -/
theorem W2_q : Gen.W2 m ρ c (Proc.devRef .tc main_v1_0)
    = qkvArr 0 (m ((c : Thread nD τ).loc main_arg0)) (w3 (m ((c : Thread nD τ).loc main_arg1))) :=
  (Gen.W2_arr m ρ c 2).trans ((hq (Gen.V1 m ρ) c).trans (by
    show qkvArr 0 (Gen.W1 m ρ c (Proc.devRef .tc main_arg0)) (Gen.W1 m ρ c (Proc.devRef .tc main_v0)) = _
    rw [W1_x, W1_w]))

include hk in
/-- Leaving the first region the key array is the projection against slab 1. -/
theorem W2_k : Gen.W2 m ρ c (Proc.devRef .tc main_v1_1)
    = qkvArr 1 (m ((c : Thread nD τ).loc main_arg0)) (w3 (m ((c : Thread nD τ).loc main_arg1))) :=
  (Gen.W2_arr m ρ c 3).trans ((hk (Gen.V1 m ρ) c).trans (by
    show qkvArr 1 (Gen.W1 m ρ c (Proc.devRef .tc main_arg0)) (Gen.W1 m ρ c (Proc.devRef .tc main_v0)) = _
    rw [W1_x, W1_w]))

include hv in
/-- Leaving the first region the value array is the projection against slab 2. -/
theorem W2_v : Gen.W2 m ρ c (Proc.devRef .tc main_v1_2)
    = qkvArr 2 (m ((c : Thread nD τ).loc main_arg0)) (w3 (m ((c : Thread nD τ).loc main_arg1))) :=
  (Gen.W2_arr m ρ c 4).trans ((hv (Gen.V1 m ρ) c).trans (by
    show qkvArr 2 (Gen.W1 m ρ c (Proc.devRef .tc main_arg0)) (Gen.W1 m ρ c (Proc.devRef .tc main_v0)) = _
    rw [W1_x, W1_w]))

include hq hk hv ho in
/-- Leaving the second region its output is the attention of the three projected arrays. -/
theorem W3_o : Gen.W3 m ρ c (Proc.devRef .tc main_v2)
    = attnArr (qkvArr 0 (m ((c : Thread nD τ).loc main_arg0)) (w3 (m ((c : Thread nD τ).loc main_arg1))))
        (qkvArr 1 (m ((c : Thread nD τ).loc main_arg0)) (w3 (m ((c : Thread nD τ).loc main_arg1))))
        (qkvArr 2 (m ((c : Thread nD τ).loc main_arg0)) (w3 (m ((c : Thread nD τ).loc main_arg1)))) :=
  (Gen.W3_arr m ρ c 3).trans ((ho (Gen.V2 m ρ) c).trans (by
    show attnArr (Gen.W2 m ρ c (Proc.devRef .tc main_v1_0)) (Gen.W2 m ρ c (Proc.devRef .tc main_v1_1))
      (Gen.W2 m ρ c (Proc.devRef .tc main_v1_2)) = _
    rw [W2_q m ρ c hq, W2_k m ρ c hk, W2_v m ρ c hv]))

/-- The output weight is untouched by the first two regions. -/
theorem W3_wo : Gen.W3 m ρ c (Proc.devRef .tc main_arg2) = m ((c : Thread nD τ).loc main_arg2) :=
  (Gen.W3_of_ne m ρ c main_arg2 (by decide)).trans ((Gen.W2_of_ne m ρ c main_arg2 (by decide)).trans (W1_wo m ρ c))

include hq hk hv ho in
/-- Entering the third region its rows are the attention output read as [4096, 1024]. -/
theorem W4_o : Gen.W4 m ρ c (Proc.devRef .tc main_v3)
    = flat (attnArr (qkvArr 0 (m ((c : Thread nD τ).loc main_arg0)) (w3 (m ((c : Thread nD τ).loc main_arg1))))
        (qkvArr 1 (m ((c : Thread nD τ).loc main_arg0)) (w3 (m ((c : Thread nD τ).loc main_arg1))))
        (qkvArr 2 (m ((c : Thread nD τ).loc main_arg0)) (w3 (m ((c : Thread nD τ).loc main_arg1))))) := by
  show StableHlo.after Gen.hostOps2 _ (Proc.devRef .tc main_v3) = _
  after_results
  rw [W3_o m ρ c hq hk hv ho]
  exact reshape_flat _ _

/-- Entering the third region the output weight is as launched. -/
theorem W4_wo : Gen.W4 m ρ c (Proc.devRef .tc main_arg2) = m ((c : Thread nD τ).loc main_arg2) := by
  show StableHlo.after Gen.hostOps2 _ (Proc.devRef .tc main_arg2) = _
  after_results
  exact W3_wo m ρ c

include hq hk hv ho hy in
/-- Leaving the third region its output is the rows against the rows of the output weight. -/
theorem W5_y : Gen.W5 m ρ c (Proc.devRef .tc main_v4)
    = projArr (flat (attnArr (qkvArr 0 (m ((c : Thread nD τ).loc main_arg0)) (w3 (m ((c : Thread nD τ).loc main_arg1))))
        (qkvArr 1 (m ((c : Thread nD τ).loc main_arg0)) (w3 (m ((c : Thread nD τ).loc main_arg1))))
        (qkvArr 2 (m ((c : Thread nD τ).loc main_arg0)) (w3 (m ((c : Thread nD τ).loc main_arg1))))))
        (m ((c : Thread nD τ).loc main_arg2)) :=
  (Gen.W5_arr m ρ c 2).trans ((hy (Gen.V4 m ρ) c).trans (by
    show projArr (Gen.W4 m ρ c (Proc.devRef .tc main_v3)) (Gen.W4 m ρ c (Proc.devRef .tc main_arg2)) = _
    rw [W4_o m ρ c hq hk hv ho, W4_wo m ρ c]))

end Regions

end Walk

/-- THE RESULT BUFFER: at the return it holds the attention output of the launch contents of the three argument arrays —
    the last reshape reads the third region's output as [2, 2048, 1024]. -/
theorem W6_out
    (hq : ∀ (V : (c : Dev nD) → (b : Ref sig .tc) → Buf (Elt Ideal) ((c : Thread nD τ).loc b)) (c : Dev nD),
      (Gen.dat0 (F := Ideal) V c).arrAt 2 cfg0.N = qkvArr 0 (V c main_arg0) (V c main_v0))
    (hk : ∀ (V : (c : Dev nD) → (b : Ref sig .tc) → Buf (Elt Ideal) ((c : Thread nD τ).loc b)) (c : Dev nD),
      (Gen.dat0 (F := Ideal) V c).arrAt 3 cfg0.N = qkvArr 1 (V c main_arg0) (V c main_v0))
    (hv : ∀ (V : (c : Dev nD) → (b : Ref sig .tc) → Buf (Elt Ideal) ((c : Thread nD τ).loc b)) (c : Dev nD),
      (Gen.dat0 (F := Ideal) V c).arrAt 4 cfg0.N = qkvArr 2 (V c main_arg0) (V c main_v0))
    (ho : ∀ (V : (c : Dev nD) → (b : Ref sig .tc) → Buf (Elt Ideal) ((c : Thread nD τ).loc b)) (c : Dev nD),
      (Gen.dat1 (F := Ideal) V c).arrAt 3 cfg1.N = attnArr (V c main_v1_0) (V c main_v1_1) (V c main_v1_2))
    (hy : ∀ (V : (c : Dev nD) → (b : Ref sig .tc) → Buf (Elt Ideal) ((c : Thread nD τ).loc b)) (c : Dev nD),
      (Gen.dat2 (F := Ideal) V c).arrAt 2 cfg2.N = projArr (V c main_v3) (V c main_arg2))
    (m : (ℓ : Loc nD τ sig) → Buf (Elt Ideal) ℓ) (ρ : Dev nD → PrngReg) (c : Dev nD) :
    Gen.W6 m ρ c (Proc.devRef .tc main_v5)
      = attnOut (m ((c : Thread nD τ).loc main_arg0)) (m ((c : Thread nD τ).loc main_arg1)) (m ((c : Thread nD τ).loc main_arg2)) := by
  show StableHlo.after Gen.hostOps3 _ (Proc.devRef .tc main_v5) = _
  after_results
  rw [W5_y m ρ c hq hk hv ho hy]
  exact reshape_unflat _ _

end Cert.KernelIdeal.KernelFold

end
-- ==== Proof.KernelRun.lean ====
/-
  The kernel's run with its result named: from any launch memory with zero counters every weakly fair execution of the
  three regions and the host reshapes between them terminates without fault, the result buffer then holds the attention
  output of the three argument arrays, and the argument arrays are as launched.
-/
import proofs.«108100_j55834574848209_2_alg».proof.Proof.Gen.KernelIdeal.Frame
import proofs.«108100_j55834574848209_2_alg».proof.Proof.Spec
import proofs.«108100_j55834574848209_2_alg».proof.Proof.KernelFold

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn
open Cert.KernelIdeal.Gen

local notation "𝕄" => MT nD τ sig Unit (Elt Ideal) ℕ (UR sig nD τ) ℕ

set_option backward.isDefEq.respectTransparency.types false in
/-- The run: the result buffer ends at `attnOut` of the launch contents of the three argument arrays, and those arrays
    end as launched.  The last boundary's contents are read at the result buffer through the fold of the boundary
    contents (`KernelFold.W6_out`), at each argument by walking back to the launch. -/
theorem run
    (hq : ∀ (V : (c : Dev nD) → (b : Ref sig .tc) → Buf (Elt Ideal) ((c : Thread nD τ).loc b)) (c : Dev nD),
      (Gen.dat0 (F := Ideal) V c).arrAt 2 cfg0.N = qkvArr 0 (V c main_arg0) (V c main_v0))
    (hk : ∀ (V : (c : Dev nD) → (b : Ref sig .tc) → Buf (Elt Ideal) ((c : Thread nD τ).loc b)) (c : Dev nD),
      (Gen.dat0 (F := Ideal) V c).arrAt 3 cfg0.N = qkvArr 1 (V c main_arg0) (V c main_v0))
    (hv : ∀ (V : (c : Dev nD) → (b : Ref sig .tc) → Buf (Elt Ideal) ((c : Thread nD τ).loc b)) (c : Dev nD),
      (Gen.dat0 (F := Ideal) V c).arrAt 4 cfg0.N = qkvArr 2 (V c main_arg0) (V c main_v0))
    (ho : ∀ (V : (c : Dev nD) → (b : Ref sig .tc) → Buf (Elt Ideal) ((c : Thread nD τ).loc b)) (c : Dev nD),
      (Gen.dat1 (F := Ideal) V c).arrAt 3 cfg1.N = attnArr (V c main_v1_0) (V c main_v1_1) (V c main_v1_2))
    (hy : ∀ (V : (c : Dev nD) → (b : Ref sig .tc) → Buf (Elt Ideal) ((c : Thread nD τ).loc b)) (c : Dev nD),
      (Gen.dat2 (F := Ideal) V c).arrAt 2 cfg2.N = projArr (V c main_v3) (V c main_arg2))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = attnOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v5 (by decide))).trans (KernelFold.W6_out hq hk hv ho hy m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.KernelRun

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.RealInputs.lean ====
/-
  From the precondition to "every entry of the activations and of the projection weight is a real number".

  The precondition is the conjunction of three tests, one per argument array: every entry's absolute value is below +∞.
  On the extended reals that test holds exactly of the real numbers.  Each test is an `and` over all entries of
  entrywise comparisons, and the whole is the `and` of the three; that it is 1 gives each comparison at each entry.
-/
import proofs.«108100_j55834574848209_2_alg».proof.Defs
import proofs.«108100_j55834574848209_2_alg».proof.Proof.Gen.Pre_finite_inputs
import proofs.«108100_j55834574848209_2_alg».proof.Proof.LibRealEntry
import proofs.«108100_j55834574848209_2_alg».proof.Proof.Spec
import Idealize.ShloMosaic.Lib.ReduceAll
import Idealize.ShloMosaic.Lib.ValueIdx

noncomputable section

namespace Cert.KernelIdeal.RealInputs

open Idealize.ShloMosaic Idealize.ShloMosaic.TcCoe
open Cert.Attn

/-- The result of a reduction over every axis has one index. -/
local instance : Subsingleton Cert.Pre_finite_inputs.S_.Idx := ⟨fun a b => funext fun d => d.elim0⟩

/-- The three tests of the precondition, each at every entry of its array. -/
theorem tests (m : (ℓ : Loc nD τ sig) → Buf (Elt Ideal) ℓ) (h : Cert.Pre_KernelIdeal m) (c : Dev nD) :
    (∀ i : SX.Idx, ∃ r : ℝ, m ((c.tc : Thread nD τ).loc main_arg0) i = (r : EReal))
    ∧ (∀ i : SWq.Idx, ∃ r : ℝ, m ((c.tc : Thread nD τ).loc main_arg1) i = (r : EReal)) := by
  have h0 := congrFun (h c) ValueIdx.ix0
  dsimp only [Cert.Pre_finite_inputs.fn] at h0
  obtain ⟨h1, -⟩ := IntOp.andi_eq_one.1 h0
  obtain ⟨hx, hw⟩ := IntOp.andi_eq_one.1 h1
  exact ⟨fun i => Cert.LibRealEntry.real_of_abs_lt _ (Host.reduce_andi_all _ _ _ _ _ hx i),
    fun i => Cert.LibRealEntry.real_of_abs_lt _ (Host.reduce_andi_all _ _ _ _ _ hw i)⟩

/-- Every entry of the activations is a real number. -/
theorem real_x (m : (ℓ : Loc nD τ sig) → Buf (Elt Ideal) ℓ) (h : Cert.Pre_KernelIdeal m) (c : Dev nD) (i : Cert.Attn.SX.Idx) :
    ∃ r : ℝ, m ((c.tc : Thread nD τ).loc main_arg0) i = (r : EReal) := (tests m h c).1 i

/-- Every entry of the projection weight is a real number. -/
theorem real_wq (m : (ℓ : Loc nD τ sig) → Buf (Elt Ideal) ℓ) (h : Cert.Pre_KernelIdeal m) (c : Dev nD) (i : Cert.Attn.SWq.Idx) :
    ∃ r : ℝ, m ((c.tc : Thread nD τ).loc main_arg1) i = (r : EReal) := (tests m h c).2 i

end Cert.KernelIdeal.RealInputs

end
-- ==== Proof.RefValue.lean ====
/-
  The reference computation read index by index: its result array is the head-major attention function of the three
  argument arrays.  Bottom-up, one lemma per named quantity: a projected head entry (the first matrix product read
  through the regrouping of its 3072 columns into slab, head and head coordinate), the scaled score, the row maximum,
  the exponential weight, the sum of the weights, the attention entry, and the output projection.
-/
import proofs.«108100_j55834574848209_2_alg».proof.Proof.Gen.ReferenceIdeal.Read
import proofs.«108100_j55834574848209_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-! ## The index maps at explicit coordinates -/

/-- Column `c·1024 + h·64 + d` of the 3072 columns of the first product. -/
abbrev col (c : Fin 3) (h : Fin 16) (d : Fin 64) : Fin 3072 :=
  ⟨c.val * 1024 + h.val * 64 + d.val, by have := c.isLt; have := h.isLt; have := d.isLt; omega⟩

/-- The transpose exchanging the row axis and the head axis, at coordinates. -/
theorem idx_tr (b : Fin 2) (h : Fin 16) (s : Fin 2048) (d : Fin 64) :
    idx_main_v4 (ix4 b h s d) = ix4 b s h d :=
  funext fun a => by match a with | ⟨0, _⟩ => rfl | ⟨1, _⟩ => rfl | ⟨2, _⟩ => rfl | ⟨3, _⟩ => rfl

/-- Dropping the unit slab axis is row-major the identity on the other four coordinates. -/
theorem idx_unit (b : Fin 2) (s : Fin 2048) (h : Fin 16) (d : Fin 64) :
    idx_main_v3 (ix4 b s h d) = ix5 b s (0 : Fin 1) h d :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => rfl
    | ⟨3, _⟩ => show (((b.val * 2048 + s.val) * 16 + h.val) * 64 + d.val) / 64 % 16 = h.val; omega
    | ⟨4, _⟩ => show (((b.val * 2048 + s.val) * 16 + h.val) * 64 + d.val) % 64 = d.val; omega)

/-- The three slab slices, at coordinates. -/
theorem idx_slice0 (b : Fin 2) (s : Fin 2048) (h : Fin 16) (d : Fin 64) :
    idx_main_v2 (ix5 b s (0 : Fin 1) h d) = ix5 b s (0 : Fin 3) h d :=
  funext fun a => Fin.ext (by match a with | ⟨0, _⟩ => rfl | ⟨1, _⟩ => rfl | ⟨2, _⟩ => rfl | ⟨3, _⟩ => rfl | ⟨4, _⟩ => rfl)
theorem idx_slice1 (b : Fin 2) (s : Fin 2048) (h : Fin 16) (d : Fin 64) :
    idx_main_v5 (ix5 b s (0 : Fin 1) h d) = ix5 b s (1 : Fin 3) h d :=
  funext fun a => Fin.ext (by match a with | ⟨0, _⟩ => rfl | ⟨1, _⟩ => rfl | ⟨2, _⟩ => rfl | ⟨3, _⟩ => rfl | ⟨4, _⟩ => rfl)
theorem idx_slice2 (b : Fin 2) (s : Fin 2048) (h : Fin 16) (d : Fin 64) :
    idx_main_v8 (ix5 b s (0 : Fin 1) h d) = ix5 b s (2 : Fin 3) h d :=
  funext fun a => Fin.ext (by match a with | ⟨0, _⟩ => rfl | ⟨1, _⟩ => rfl | ⟨2, _⟩ => rfl | ⟨3, _⟩ => rfl | ⟨4, _⟩ => rfl)

/-- Regrouping the 3072 columns into slab, head and head coordinate, row-major. -/
theorem idx_cols (b : Fin 2) (s : Fin 2048) (c : Fin 3) (h : Fin 16) (d : Fin 64) :
    idx_main_v1 (ix5 b s c h d) = ix3 b s (col c h d) :=
  funext fun a => Fin.ext (by
    have hb := b.isLt; have hs := s.isLt; have hc := c.isLt; have hh := h.isLt; have hd := d.isLt
    match a with
    | ⟨0, _⟩ => show ((((b.val * 2048 + s.val) * 3 + c.val) * 16 + h.val) * 64 + d.val) / 6291456 = b.val; omega
    | ⟨1, _⟩ => show ((((b.val * 2048 + s.val) * 3 + c.val) * 16 + h.val) * 64 + d.val) / 3072 % 2048 = s.val; omega
    | ⟨2, _⟩ => show ((((b.val * 2048 + s.val) * 3 + c.val) * 16 + h.val) * 64 + d.val) % 3072 = c.val * 1024 + h.val * 64 + d.val; omega)

/-- The first product at row `(b, s)` and column `j`. -/
theorem prod_apply (x : SX.Idx → EReal) (wq : SWq.Idx → EReal) (b : Fin 2) (s : Fin 2048) (j : Fin 3072) :
    val_main_v0 (F := Ideal) x wq (ix3 b s j) = ∑ e : Fin 1024, x (ix3 b s e) * wq (ix2 j e) := by
  rw [val_main_v0_apply]
  refine Finset.sum_congr rfl fun e _ => ?_
  refine congrArg₂ (· * ·) (congrArg x ?_) (congrArg wq ?_)
  · exact funext fun a => by match a with | ⟨0, _⟩ => rfl | ⟨1, _⟩ => rfl | ⟨2, _⟩ => rfl
  · exact funext fun a => by match a with | ⟨0, _⟩ => rfl | ⟨1, _⟩ => rfl

/-- The regrouped product at `(b, s, c, h, d)` is the projected entry of slab `c`. -/
theorem cols_apply (x : SX.Idx → EReal) (wq : SWq.Idx → EReal) (b : Fin 2) (s : Fin 2048) (c : Fin 3) (h : Fin 16) (d : Fin 64) :
    val_main_v1 (F := Ideal) x wq (ix5 b s c h d) = refHead x wq c b h s d := by
  rw [val_main_v1_apply, idx_cols, prod_apply]
  rfl

/-- The query, key and value heads at `(b, h, s, d)`. -/
theorem head0_apply (x : SX.Idx → EReal) (wq : SWq.Idx → EReal) (b : Fin 2) (h : Fin 16) (s : Fin 2048) (d : Fin 64) :
    val_main_v4 (F := Ideal) x wq (ix4 b h s d) = refHead x wq 0 b h s d := by
  rw [val_main_v4_apply, idx_tr, val_main_v3_apply, idx_unit, val_main_v2_apply, idx_slice0, cols_apply]
theorem head1_apply (x : SX.Idx → EReal) (wq : SWq.Idx → EReal) (b : Fin 2) (h : Fin 16) (s : Fin 2048) (d : Fin 64) :
    val_main_v7 (F := Ideal) x wq (ix4 b h s d) = refHead x wq 1 b h s d := by
  rw [val_main_v7_apply]
  refine (congrArg _ (idx_tr b h s d)).trans ?_
  rw [val_main_v6_apply]
  refine (congrArg _ (idx_unit b s h d)).trans ?_
  rw [val_main_v5_apply, idx_slice1, cols_apply]
theorem head2_apply (x : SX.Idx → EReal) (wq : SWq.Idx → EReal) (b : Fin 2) (h : Fin 16) (s : Fin 2048) (d : Fin 64) :
    val_main_v10 (F := Ideal) x wq (ix4 b h s d) = refHead x wq 2 b h s d := by
  rw [val_main_v10_apply]
  refine (congrArg _ (idx_tr b h s d)).trans ?_
  rw [val_main_v9_apply]
  refine (congrArg _ (idx_unit b s h d)).trans ?_
  rw [val_main_v8_apply, idx_slice2, cols_apply]

/-! ## Scores, maximum, weights, their sum -/

/-- The scaled score of query row `s` against key row `t`. -/
theorem score_apply (x : SX.Idx → EReal) (wq : SWq.Idx → EReal) (b : Fin 2) (h : Fin 16) (s t : Fin 2048) :
    val_main_v13 (F := Ideal) x wq (ix4 b h s t) = refScore x wq b h s t := by
  rw [val_main_v13_apply, val_main_v11_apply, val_main_v12_apply, val_main_cst_apply]
  unfold refScore
  refine congrArg₂ (· * ·) (Finset.sum_congr rfl fun k _ => ?_) rfl
  have el : lidx_main_v11 (ix4 b h s t) k = ix4 b h s k :=
    funext fun a => by match a with | ⟨0, _⟩ => rfl | ⟨1, _⟩ => rfl | ⟨2, _⟩ => rfl | ⟨3, _⟩ => rfl
  have er : ridx_main_v11 (ix4 b h s t) k = ix4 b h t k :=
    funext fun a => by match a with | ⟨0, _⟩ => rfl | ⟨1, _⟩ => rfl | ⟨2, _⟩ => rfl | ⟨3, _⟩ => rfl
  rw [el, er, head0_apply, head1_apply]

/-- The fact naming the index with the reduced coordinate inserted. -/
theorem reduces_d3 : S2x16x2048x2048.Reduces [3] S2x16x2048 := by decide

/-- The row index `(b, h, s)` with `t` inserted on the last axis. -/
theorem lift_d3 (b : Fin 2) (h : Fin 16) (s t : Fin 2048) :
    reduces_d3.lift (ix3 b h s) t = ix4 b h s t :=
  funext fun a => Fin.ext (by match a with | ⟨0, _⟩ => rfl | ⟨1, _⟩ => rfl | ⟨2, _⟩ => rfl | ⟨3, _⟩ => rfl)

/-- The maximum over the key rows, folded from -∞. -/
theorem rowmax_apply (x : SX.Idx → EReal) (wq : SWq.Idx → EReal) (b : Fin 2) (h : Fin 16) (s : Fin 2048) :
    val_main_v14 (F := Ideal) x wq (ix3 b h s)
      = (Finset.univ : Finset (Fin 2048)).fold max negInf (fun t => refScore x wq b h s t) := by
  unfold val_main_v14
  rw [Host.reduce_eq_fold_single FloatOps.maximumf _ _ reducesTo_S2x16x2048x2048_S2x16x2048_d3 reduces_d3 h_S_ (ix3 b h s)]
  have hf : (val_main_v13 (F := Ideal) x wq ∘ reduces_d3.lift (ix3 b h s)) = fun t : Fin 2048 => refScore x wq b h s t :=
    funext fun t => (congrArg (val_main_v13 (F := Ideal) x wq) (lift_d3 b h s t)).trans (score_apply x wq b h s t)
  rw [hf]
  rfl

/-- The row maximum as the reference takes it: -∞ against the fold. -/
theorem max_apply (x : SX.Idx → EReal) (wq : SWq.Idx → EReal) (b : Fin 2) (h : Fin 16) (s : Fin 2048) :
    val_main_v16 (F := Ideal) x wq (ix3 b h s) = refMax x wq b h s := by
  rw [val_main_v16_apply, val_main_v15_apply, val_main_cst_1_apply, rowmax_apply]
  rfl

/-- The exponential weight of key row `t`. -/
theorem w_apply (x : SX.Idx → EReal) (wq : SWq.Idx → EReal) (b : Fin 2) (h : Fin 16) (s t : Fin 2048) :
    val_main_v20 (F := Ideal) x wq (ix4 b h s t) = refW x wq b h s t := by
  rw [val_main_v20_apply, val_main_v19_apply, score_apply, val_main_v18_apply, val_main_v17_apply]
  have e : idx_main_v17 (idx_main_v18 (ix4 b h s t)) = ix3 b h s :=
    funext fun a => by match a with | ⟨0, _⟩ => rfl | ⟨1, _⟩ => rfl | ⟨2, _⟩ => rfl
  rw [e, max_apply]
  rfl

/-- The sum of the weights of a query row. -/
theorem den_apply (x : SX.Idx → EReal) (wq : SWq.Idx → EReal) (b : Fin 2) (h : Fin 16) (s : Fin 2048) :
    val_main_v21 (F := Ideal) x wq (ix3 b h s) = refDen x wq b h s := by
  rw [val_main_v21_apply, val_main_cst_2_apply]
  show Ideal.ofBits .f32 0x00000000#32 + _ = _
  rw [Ideal.ofBits_zero_f32, zero_add]
  unfold refDen
  refine Finset.sum_congr rfl fun t _ => ?_
  have e : idx_main_v21 (ix3 b h s) t = ix4 b h s t :=
    funext fun a => by match a with | ⟨0, _⟩ => rfl | ⟨1, _⟩ => rfl | ⟨2, _⟩ => rfl | ⟨3, _⟩ => rfl
  rw [e, w_apply]

/-- The normalised weight of key row `t`. -/
theorem nw_apply (x : SX.Idx → EReal) (wq : SWq.Idx → EReal) (b : Fin 2) (h : Fin 16) (s t : Fin 2048) :
    val_main_v24 (F := Ideal) x wq (ix4 b h s t) = Ideal.div (refW x wq b h s t) (refDen x wq b h s) := by
  rw [val_main_v24_apply, w_apply, val_main_v23_apply, val_main_v22_apply]
  have e : idx_main_v22 (idx_main_v23 (ix4 b h s t)) = ix3 b h s :=
    funext fun a => by match a with | ⟨0, _⟩ => rfl | ⟨1, _⟩ => rfl | ⟨2, _⟩ => rfl
  rw [e, den_apply]
  rfl

/-! ## The attention entry and the output projection -/

/-- One attention entry: the value rows weighted by the normalised weights. -/
theorem attn_apply (x : SX.Idx → EReal) (wq : SWq.Idx → EReal) (b : Fin 2) (h : Fin 16) (s : Fin 2048) (d : Fin 64) :
    val_main_v25 (F := Ideal) x wq (ix4 b h s d) = refAttn x wq b h s d := by
  rw [val_main_v25_apply]
  unfold refAttn
  refine Finset.sum_congr rfl fun t _ => ?_
  have el : lidx_main_v25 (ix4 b h s d) t = ix4 b h s t :=
    funext fun a => by match a with | ⟨0, _⟩ => rfl | ⟨1, _⟩ => rfl | ⟨2, _⟩ => rfl | ⟨3, _⟩ => rfl
  have er : ridx_main_v25 (ix4 b h s d) t = ix4 b h t d :=
    funext fun a => by match a with | ⟨0, _⟩ => rfl | ⟨1, _⟩ => rfl | ⟨2, _⟩ => rfl | ⟨3, _⟩ => rfl
  rw [el, er, nw_apply, head2_apply]

/-- Coordinate `a` of the 1024 is head `a / 64`, head coordinate `a % 64`, row-major. -/
theorem idx_heads (b : Fin 2) (s : Fin 2048) (a : Fin 1024) :
    idx_main_v26 (idx_main_v27 (ix3 b s a))
      = ix4 b (⟨a.val / 64, by have := a.isLt; omega⟩ : Fin 16) s (⟨a.val % 64, by omega⟩ : Fin 64) :=
  funext fun j => Fin.ext (by
    have hb := b.isLt; have hs := s.isLt; have ha := a.isLt
    match j with
    | ⟨0, _⟩ => show ((b.val * 2048 + s.val) * 1024 + a.val) / 2097152 = b.val; omega
    | ⟨1, _⟩ => show ((b.val * 2048 + s.val) * 1024 + a.val) / 64 % 16 = a.val / 64; omega
    | ⟨2, _⟩ => show ((b.val * 2048 + s.val) * 1024 + a.val) / 1024 % 2048 = s.val; omega
    | ⟨3, _⟩ => show ((b.val * 2048 + s.val) * 1024 + a.val) % 64 = a.val % 64; omega)

/-- The attention row `(b, s)` laid out head-major over the 1024 coordinates. -/
theorem flat_apply (x : SX.Idx → EReal) (wq : SWq.Idx → EReal) (b : Fin 2) (s : Fin 2048) (a : Fin 1024) :
    val_main_v27 (F := Ideal) x wq (ix3 b s a)
      = refAttn x wq b (⟨a.val / 64, by have := a.isLt; omega⟩ : Fin 16) s (⟨a.val % 64, by omega⟩ : Fin 64) := by
  rw [val_main_v27_apply, val_main_v26_apply, idx_heads, attn_apply]

/-- One entry of the result. -/
theorem out_apply (x : SX.Idx → EReal) (wq : SWq.Idx → EReal) (wo : SO.Idx → EReal) (b : Fin 2) (s : Fin 2048) (e : Fin 1024) :
    val_main_v28 (F := Ideal) x wq wo (ix3 b s e) = refOutAt x wq wo b s e := by
  rw [val_main_v28_apply]
  unfold refOutAt
  refine Finset.sum_congr rfl fun a _ => ?_
  have el : lidx_main_v28 (ix3 b s e) a = ix3 b s a :=
    funext fun j => by match j with | ⟨0, _⟩ => rfl | ⟨1, _⟩ => rfl | ⟨2, _⟩ => rfl
  have er : ridx_main_v28 (ix3 b s e) a = ix2 e a :=
    funext fun j => by match j with | ⟨0, _⟩ => rfl | ⟨1, _⟩ => rfl
  rw [el, er, flat_apply]

/-- The reference's result is the head-major attention function of its three arguments. -/
theorem result_eq (m : (ℓ : Loc nD τ sig) → Buf (Elt Ideal) ℓ) (c : Dev nD) :
    Cert.ReferenceIdeal.Value.res_main_v28 (F := Ideal) m c
      = Cert.Attn.refOut (m ((c.tc : Thread nD τ).loc main_arg0)) (m ((c.tc : Thread nD τ).loc main_arg1))
          (m ((c.tc : Thread nD τ).loc main_arg2)) := by
  rw [val_main_v28_eq]
  funext i
  rw [eq_ix3 i]
  exact out_apply _ _ _ (i 0) (i 1) (i 2)

end Cert.ReferenceIdeal.RefValue

end
-- ==== Proof.lean ====
/-
  Multi-head self-attention as three kernels — the projection of the input rows into queries, keys and values, two
  heads to a 128-lane row; softmax attention, two heads per grid point; the output projection — against the plain
  array program: projection, per-head scores scaled by 1/8, a softmax along the key axis, the weighted sum of the value
  rows, and the output projection.

  On the extended reals a change of float format is the identity, a matrix product into a zero accumulator is a sum of
  products, and a lane reduction is a sum or a maximum, so each kernel's output ARRAY is one whole-array function of its
  input arrays (QkvRegion, AttnBody and AttnRegion, ProjRegion), the kernel program's result is their composition
  through the row-major regroupings between the kernels (KernelFold, KernelRun), and the array program's result is the
  head-major spelling of the same computation (RefValue).  The two differ in ONE place: the kernel divides the weighted
  sum of the value rows by the sum of the weights, the array program normalises each weight first.  The two agree when
  every quantity is a real number (Bridge), which the precondition gives: every input entry is finite (RealInputs), so
  every projected entry, score, maximum, weight and sum of weights is real, and the sum of weights is positive.
-/
import proofs.«108100_j55834574848209_2_alg».proof.Defs
import proofs.«108100_j55834574848209_2_alg».proof.Proof.Gen.Kernel
import proofs.«108100_j55834574848209_2_alg».proof.Proof.Gen.Kernel.Skeleton
import proofs.«108100_j55834574848209_2_alg».proof.Proof.Gen.Kernel.Launch
import proofs.«108100_j55834574848209_2_alg».proof.Proof.Gen.Kernel.Points
import proofs.«108100_j55834574848209_2_alg».proof.Proof.Gen.Kernel.Frame
import proofs.«108100_j55834574848209_2_alg».proof.Proof.Gen.KernelIdeal
import proofs.«108100_j55834574848209_2_alg».proof.Proof.Gen.KernelIdeal.Skeleton
import proofs.«108100_j55834574848209_2_alg».proof.Proof.Gen.KernelIdeal.Launch
import proofs.«108100_j55834574848209_2_alg».proof.Proof.Gen.KernelIdeal.Points
import proofs.«108100_j55834574848209_2_alg».proof.Proof.Gen.KernelIdeal.Frame
import proofs.«108100_j55834574848209_2_alg».proof.Proof.Gen.ReferenceIdeal
import proofs.«108100_j55834574848209_2_alg».proof.Proof.Gen.ReferenceIdeal.Run
import proofs.«108100_j55834574848209_2_alg».proof.Proof.Gen.ReferenceIdeal.Read
import proofs.«108100_j55834574848209_2_alg».proof.Proof.Gen.Pre_finite_inputs
import proofs.«108100_j55834574848209_2_alg».proof.Proof.Bridge
import proofs.«108100_j55834574848209_2_alg».proof.Proof.QkvRegion
import proofs.«108100_j55834574848209_2_alg».proof.Proof.AttnRegion
import proofs.«108100_j55834574848209_2_alg».proof.Proof.ProjRegion
import proofs.«108100_j55834574848209_2_alg».proof.Proof.KernelRun
import proofs.«108100_j55834574848209_2_alg».proof.Proof.RealInputs
import proofs.«108100_j55834574848209_2_alg».proof.Proof.RefValue
import Idealize.ShloMosaic.Adequacy
import Idealize.ShloMosaic.Init

noncomputable section

namespace Cert.Proof

open Idealize.ShloMosaic Idealize.ShloMosaic.TcCoe Idealize.SL.Sem Cert.Attn

/-- The word-level program runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The array program's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: the kernel program's is `attnOut` of the arguments, the array program's
    `refOut` of the same arguments, and the two are one function on real input rows and a real projection weight. -/
theorem algebraic : Cert.algebraic_KernelIdeal_ReferenceIdeal := by
  intro m ρ m' ρ' hpre hagree
  refine ⟨fun c => attnOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run
      (fun V c => Cert.KernelIdeal.QkvRegion.final_q V c) (fun V c => Cert.KernelIdeal.QkvRegion.final_k V c)
      (fun V c => Cert.KernelIdeal.QkvRegion.final_v V c) (fun V c => Cert.KernelIdeal.AttnRegion.final V c)
      (fun V c => Cert.KernelIdeal.ProjRegion.final_y V c) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c, (hagree c).1, (hagree c).2.1, (hagree c).2.2]
  exact (Cert.Attn.Bridge.attnOut_eq_refOut _ _ (Cert.KernelIdeal.RealInputs.real_x m hpre c)
    (Cert.KernelIdeal.RealInputs.real_wq m hpre c) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
